-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x3 : Shape := ⟨2, ![800000, 3]⟩
abbrev S128x128 : Shape := ⟨2, ![128, 128]⟩
abbrev S128 : Shape := ⟨1, ![128]⟩
abbrev S259x128 : Shape := ⟨2, ![259, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x3 : S_.BroadcastsInDim S800000x3 (![] : Fin 0 → Fin S800000x3.rank)
  reducesTo_S800000x3_S_d0_1 : S800000x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S259x128 : S_.BroadcastsInDim S259x128 (![] : Fin 0 → Fin S259x128.rank)
  reducesTo_S259x128_S_d0_1 : S259x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S128x128 .f32) (main_arg9 : FVec F S259x128 .f32) (main_arg10 : FVec F S128 .f32) (main_arg11 : FVec F S128x1 .f32) (main_arg12 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S259x128 .f32 := Host.absf main_arg9
  let main_cst_14 : FVec F S_ .f32 := constant S_ .f32 0x7F800000#32
  let main_v40 : FVec F S259x128 .f32 := broadcastInDim S259x128 ![] bcast_S_S259x128 main_cst_14
  let main_v41 : IVec S259x128 1 := cmpf .olt main_v39 main_v40
  let main_c_15 : IVec S_ 1 := constantI S_ 1 1#1
  let main_v42 : IVec S_ 1 := (fun x v => Host.reduce IntOp.andi x v reducesTo_S259x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg11
  let main_cst_18 : FVec F S_ .f32 := constant S_ .f32 0x7F800000#32
  let main_v50 : FVec F S128x1 .f32 := broadcastInDim S128x1 ![] bcast_S_S128x1 main_cst_18
  fn_part3 (F := F) main_arg12 main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S259x128 .f32) (main_arg10 : FVec F S128 .f32) (main_arg11 : FVec F S128x1 .f32) (main_arg12 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S800000x3 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S259x128 .f32) (main_arg10 : FVec F S128 .f32) (main_arg11 : FVec F S128x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x3 .f32 := Host.absf main_arg2
  let main_cst_0 : FVec F S_ .f32 := constant S_ .f32 0x7F800000#32
  let main_v5 : FVec F S800000x3 .f32 := broadcastInDim S800000x3 ![] bcast_S_S800000x3 main_cst_0
  let main_v6 : IVec S800000x3 1 := cmpf .olt main_v4 main_v5
  let main_c_1 : IVec S_ 1 := constantI S_ 1 1#1
  let main_v7 : IVec S_ 1 := (fun x v => Host.reduce IntOp.andi x v reducesTo_S800000x3_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000x3 : Shape := ⟨2, ![800000, 3]⟩
abbrev S128x128 : Shape := ⟨2, ![128, 128]⟩
abbrev S128 : Shape := ⟨1, ![128]⟩
abbrev S259x128 : Shape := ⟨2, ![259, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S3x128 : Shape := ⟨2, ![3, 128]⟩
abbrev S1x1 : Shape := ⟨2, ![1, 1]⟩
abbrev S4000x128 : Shape := ⟨2, ![4000, 128]⟩
abbrev S4000x3 : Shape := ⟨2, ![4000, 3]⟩
abbrev S4000x1 : Shape := ⟨2, ![4000, 1]⟩

abbrev nBuf : Space → Nat
  | .hbm => 92
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x3, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S259x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S128x128, .bf16⟩
  | .hbm, ⟨44, _⟩ => ⟨S128x128, .bf16⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S128x128, .bf16⟩
  | .hbm, ⟨61, _⟩ => ⟨S128x128, .bf16⟩
  | .hbm, ⟨62, _⟩ => ⟨S1x128, .f32⟩
  | .hbm, ⟨63, _⟩ => ⟨S50000x128, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x128, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .f32⟩
  | .hbm, ⟨82, _⟩ => ⟨S128x128, .f32⟩
  | .hbm, ⟨83, _⟩ => ⟨S128x128, .bf16⟩
  | .hbm, ⟨84, _⟩ => ⟨S128x128, .f32⟩
  | .hbm, ⟨85, _⟩ => ⟨S128x128, .bf16⟩
  | .hbm, ⟨86, _⟩ => ⟨S3x128, .f32⟩
  | .hbm, ⟨87, _⟩ => ⟨S128x1, .bf16⟩
  | .hbm, ⟨88, _⟩ => ⟨S1x128, .f32⟩
  | .hbm, ⟨89, _⟩ => ⟨S1x1, .f32⟩
  | .hbm, ⟨90, _⟩ => ⟨S800000x1, .f32⟩
  | .hbm, ⟨91, _⟩ => ⟨S800000, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .bf16⟩
  | .local _ .vmem, ⟨7, _⟩ => ⟨S1x128, .f32⟩
  | .local _ .vmem, ⟨8, _⟩ => ⟨S128x128, .bf16⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .bf16⟩
  | .local _ .vmem, ⟨18, _⟩ => ⟨S1x128, .f32⟩
  | .local _ .vmem, ⟨19, _⟩ => ⟨S128x128, .bf16⟩
  | .local _ .vmem, ⟨20, _⟩ => ⟨S5000x128, .f32⟩
  | .local _ .vmem, ⟨21, _⟩ => ⟨S5000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x3, .f32⟩
  | .local _ .vmem, ⟨27, _⟩ => ⟨S4000x3, .f32⟩
  | .local _ .vmem, ⟨28, _⟩ => ⟨S128x128, .bf16⟩
  | .local _ .vmem, ⟨29, _⟩ => ⟨S128x128, .bf16⟩
  | .local _ .vmem, ⟨30, _⟩ => ⟨S3x128, .f32⟩
  | .local _ .vmem, ⟨31, _⟩ => ⟨S1x128, .f32⟩
  | .local _ .vmem, ⟨32, _⟩ => ⟨S128x1, .bf16⟩
  | .local _ .vmem, ⟨33, _⟩ => ⟨S1x1, .f32⟩
  | .local _ .vmem, ⟨34, _⟩ => ⟨S4000x1, .f32⟩
  | .local _ .vmem, ⟨35, _⟩ => ⟨S4000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_c_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S3x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x1 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S4000x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S259x128_S128x128_0_0 : S259x128.Slices ![0, 0] S128x128
  slices_S259x128_S128x128_128_0 : S259x128.Slices ![128, 0] S128x128
  slices_S259x128_S3x128_256_0 : S259x128.Slices ![256, 0] S3x128
  shapeCasts_S1_S1x1 : S1.ShapeCasts S1x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x3_S4000x3_0_0 : ∀ a, (![0, 0] : Fin 2 → Nat) a + S4000x3.size a ≤ S4000x3.size a
  h_S4000x3 : 0 < S4000x3.numel
  inb_S3x128_S3x128_0_0 : ∀ a, (![0, 0] : Fin 2 → Nat) a + S3x128.size a ≤ S3x128.size a
  h_S3x128 : 0 < S3x128.numel
  shapeCasts_S3x128_S3x128 : S3x128.ShapeCasts S3x128
  slices_S4000x3_o0_0_S4000x1 : S4000x3.Slices ![0, 0] S4000x1
  slices_S3x128_o0_0_S1x128 : S3x128.Slices ![0, 0] S1x128
  broadcasts_S4000x1_S4000x128 : S4000x1.Broadcasts S4000x128
  broadcasts_S1x128_S4000x128 : S1x128.Broadcasts S4000x128
  slices_S4000x3_o0_1_S4000x1 : S4000x3.Slices ![0, 1] S4000x1
  slices_S3x128_o1_0_S1x128 : S3x128.Slices ![1, 0] S1x128
  slices_S4000x3_o0_2_S4000x1 : S4000x3.Slices ![0, 2] S4000x1
  slices_S3x128_o2_0_S1x128 : S3x128.Slices ![2, 0] S1x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S800000x1_S800000 : S800000x1.ShapeCasts S800000
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S800000x128.size a
  hwx2_0 : ∀ i : grid2.Coords, EltTy.bits .f32 = 32 ∨ (Rect.block (s := S800000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S800000x128.size a
  hwx2_1 : ∀ i : grid2.Coords, EltTy.bits .f32 = 32 ∨ (Rect.block (s := S800000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x3.size a ≤ S800000x3.size a
  hwx2_2 : ∀ i : grid2.Coords, EltTy.bits .f32 = 32 ∨ (Rect.block (s := S800000x3) S4000x3.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S3x128.size a ≤ S3x128.size a
  hwx2_5 : ∀ i : grid2.Coords, EltTy.bits .f32 = 32 ∨ (Rect.block (s := S3x128) S3x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x1.size a ≤ S128x1.size a
  hwx2_7 : ∀ i : grid2.Coords, EltTy.bits .bf16 = 32 ∨ (Rect.block (s := S128x1) S128x1.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4000x1.size a ≤ S800000x1.size a
  hwx2_9 : ∀ i : grid2.Coords, EltTy.bits .f32 = 32 ∨ (Rect.block (s := S800000x1) S4000x1.size (cc2_transform_9 i) (hinb2_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v47) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S4000x3.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v56) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S3x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v60) S128x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v62) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v63) S4000x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x3 : Shape := ⟨2, ![800000, 3]⟩
abbrev S128x128 : Shape := ⟨2, ![128, 128]⟩
abbrev S128 : Shape := ⟨1, ![128]⟩
abbrev S259x128 : Shape := ⟨2, ![259, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S800000x259 : Shape := ⟨2, ![800000, 259]⟩
abbrev S1x1 : Shape := ⟨2, ![1, 1]⟩

abbrev nBuf : Space → Nat
  | .hbm => 113
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x3, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S259x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S_, .f32⟩
  | .hbm, ⟨31, _⟩ => ⟨S800000, .f32⟩
  | .hbm, ⟨32, _⟩ => ⟨S_, .f32⟩
  | .hbm, ⟨33, _⟩ => ⟨S50000, .f32⟩
  | .hbm, ⟨34, _⟩ => ⟨S800000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S_, .f32⟩
  | .hbm, ⟨65, _⟩ => ⟨S800000, .f32⟩
  | .hbm, ⟨66, _⟩ => ⟨S_, .f32⟩
  | .hbm, ⟨67, _⟩ => ⟨S50000, .f32⟩
  | .hbm, ⟨68, _⟩ => ⟨S800000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x128, .f32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000x128, .f32⟩
  | .hbm, ⟨100, _⟩ => ⟨S800000x259, .f32⟩
  | .hbm, ⟨101, _⟩ => ⟨S800000x128, .f32⟩
  | .hbm, ⟨102, _⟩ => ⟨S1x128, .f32⟩
  | .hbm, ⟨103, _⟩ => ⟨S800000x128, .f32⟩
  | .hbm, ⟨104, _⟩ => ⟨S800000x128, .f32⟩
  | .hbm, ⟨105, _⟩ => ⟨S_, .f32⟩
  | .hbm, ⟨106, _⟩ => ⟨S800000x128, .f32⟩
  | .hbm, ⟨107, _⟩ => ⟨S800000x128, .f32⟩
  | .hbm, ⟨108, _⟩ => ⟨S800000x1, .f32⟩
  | .hbm, ⟨109, _⟩ => ⟨S1x1, .f32⟩
  | .hbm, ⟨110, _⟩ => ⟨S800000x1, .f32⟩
  | .hbm, ⟨111, _⟩ => ⟨S800000x1, .f32⟩
  | .hbm, ⟨112, _⟩ => ⟨S800000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_10 : Ref sig .tc := ⟨.hbm, 82, rfl⟩
abbrev main_v55 : Ref sig .tc := ⟨.hbm, 83, rfl⟩
abbrev main_v56 : Ref sig .tc := ⟨.hbm, 84, rfl⟩
abbrev main_c_11 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_12 : Ref sig .tc := ⟨.hbm, 91, rfl⟩
abbrev main_v62 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_call1_cst : Ref sig .tc := ⟨.hbm, 105, rfl⟩
abbrev main_call1_v0 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S800000x128_S800000x128_S800000x3_S800000x259_d1 : Shape.Concatenates [S800000x128, S800000x128, S800000x3] S800000x259 1
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S800000x259_S259x128_S800000x128_1_0_0_1_n_n_wf : DotDims.WF S800000x259 S259x128 S800000x128 [1] [0] [0] [1] [] []
  dot_S800000x128_S128x1_S800000x1_1_0_0_1_n_n_wf : DotDims.WF S800000x128 S128x1 S800000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x259_S259x128_S800000x128_1_0_0_1_n_n : DotDims S800000x259 S259x128 S800000x128 where
  lhsContracting := [1]
  rhsContracting := [0]
  lhsNonContracting := [0]
  rhsNonContracting := [1]
  lhsBatch := []
  rhsBatch := []
  wf := dot_S800000x259_S259x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf

class Facts : Prop extends Facts₀ where

variable [Facts]
-- ==== Proof.KernelRun.lean ====
/-
  The idealized kernel's run with its result named.  The program is three tiled regions among four stretches of host
  operations; the buffers' contents at each boundary are a fold from the launch memory (`Gen.W1` … `Gen.W7`).  Every
  weakly fair execution terminates with the result buffer at the last boundary's contents `Gen.W7 … main_v64` and the
  arguments as launched.  What that fold IS, as a function of the arguments, is read in the sibling modules.
-/
import proofs.«129380_j80599356277028_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's seven segments, the final state read at the result buffer and at every argument. -/
theorem run_result : θ_run defs (onTc (τ := τ) (main (F := F))) ⟨m, fun _ => 0, ρ⟩ (fun r => ∀ c : Dev nD,
      r.2.mem ((c.tc : Thread nD τ).loc main_v64) = W7 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v64 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c)⟩)

end Cert.KernelIdeal.RunValue

end
-- ==== Proof.Layers.lean ====
/-
  The mathematics of the three dense stages, entry by entry on the extended reals, in the two arrangements the two
  programs give them, generic in the number of rows `R` (a stage works on every row alone, so the same functions
  describe one tile of rows and the whole array).

  * A SAGE projection of a row: with `s` the row's neighbour sum, `x` the row itself and `d ≥ 1` the row's clamped
    in-degree, the tiled program computes `(Σₖ (s k · (1/d)) · Wl k q + Σₖ x k · Wr k q) + b q` and the plain one
    `(Σₖ (s k / d) · Wl k q + b q) + Σₖ x k · Wr k q`.  They agree because `u · (1/d) = u / d` whenever `d ≠ 0`
    (also for infinite `u` or `d`), and because addition of extended reals is commutative and associative.
  * The edge classifier of a row: the plain program multiplies the joined row `[hs | hd | ea]` (259 entries) with the
    259 × 128 matrix; the tiled one adds the product of `hs` with the matrix's first 128 rows, of `hd` with its next 128
    rows, and the three outer-product terms of `ea` with its last three rows.  A sum over 259 = 128 + 128 + 3 indices
    splits into those five pieces; nothing but associativity is used.
-/
import Idealize.ShloMosaic.Lib.ValueIdx
import Idealize.ShloMosaic.Lib.IdealHost
import Idealize.ShloMosaic.PureOps.Ideal.Laws

noncomputable section

namespace Cert.Gnn

open Idealize.ShloMosaic Idealize.ShloMosaic.ValueIdx
open scoped BigOperators

/-- An `a × b` matrix of extended reals, indexed as the programs index a rank-2 array. -/
abbrev Mat (a b : ℕ) : Type := (⟨2, ![a, b]⟩ : Shape).Idx → EReal

/-- The floor of a ReLU: the value of the binary32 zero word. -/
abbrev zeroF : EReal := Ideal.ofBits .f32 0x00000000#32
/-- The value of the binary32 word of one. -/
abbrev oneF : EReal := Ideal.ofBits .f32 0x3F800000#32

/-! ## The SAGE projection -/

/-- The tiled arrangement: the neighbour sums are scaled by the reciprocal degree `inv` before the product, the two
    products are added first and the bias last. -/
def sageTiledAt {R : ℕ} (s : Mat R 128) (inv : Mat R 1) (x : Mat R 128) (wl : Mat 128 128) (b : Mat 1 128) (wr : Mat 128 128)
    (p : Fin R) (q : Fin 128) : EReal :=
  ((∑ k : Fin 128, (s (ix2 p k) * inv (ix2 p (0 : Fin 1))) * wl (ix2 k q))
    + ∑ k : Fin 128, x (ix2 p k) * wr (ix2 k q)) + b (ix2 (0 : Fin 1) q)

/-- The tiled arrangement on every row. -/
def sageTiled {R : ℕ} (s : Mat R 128) (inv : Mat R 1) (x : Mat R 128) (wl : Mat 128 128) (b : Mat 1 128) (wr : Mat 128 128) :
    Mat R 128 := fun i => sageTiledAt s inv x wl b wr (i 0) (i 1)

/-- The plain arrangement: the neighbour sums are divided by the clamped degree `d`, the bias is added to the first
    product and the second product last. -/
def sagePlainAt {R : ℕ} (s : Mat R 128) (d : Fin R → EReal) (x : Mat R 128) (wl : Mat 128 128) (b : Fin 128 → EReal) (wr : Mat 128 128)
    (p : Fin R) (q : Fin 128) : EReal :=
  ((∑ k : Fin 128, Ideal.div (s (ix2 p k)) (d p) * wl (ix2 k q)) + b q)
    + ∑ k : Fin 128, x (ix2 p k) * wr (ix2 k q)

/-- A degree clamped from below by one is not zero. -/
theorem max_one_ne_zero (u : EReal) : max u oneF ≠ 0 := by
  have e : oneF = 1 := Ideal.ofBits_one_f32
  have h1 : (0 : EReal) < max u oneF := lt_of_lt_of_le (by rw [e]; exact zero_lt_one) (le_max_right _ _)
  exact ne_of_gt h1

/-- The two arrangements agree when the reciprocal degree is `1 / d` with `d ≠ 0` and the bias row is the bias. -/
theorem sageTiledAt_eq_plainAt {R : ℕ} (s : Mat R 128) (inv : Mat R 1) (d : Fin R → EReal) (x : Mat R 128) (wl : Mat 128 128)
    (b : Mat 1 128) (bv : Fin 128 → EReal) (wr : Mat 128 128)
    (hinv : ∀ p : Fin R, inv (ix2 p (0 : Fin 1)) = Ideal.div oneF (d p)) (hd : ∀ p, d p ≠ 0)
    (hb : ∀ q : Fin 128, b (ix2 (0 : Fin 1) q) = bv q)
    (p : Fin R) (q : Fin 128) :
    sageTiledAt s inv x wl b wr p q = sagePlainAt s d x wl bv wr p q := by
  unfold sageTiledAt sagePlainAt
  have e : oneF = 1 := Ideal.ofBits_one_f32
  rw [hb, add_right_comm]
  congr 2
  refine Finset.sum_congr rfl fun k _ => ?_
  rw [hinv, e, Ideal.mul_one_div (hd _)]

/-- The tiled projection of a row reads only that row of `s`, `inv` and `x`, and only column `q` of the weights and the
    bias: two settings that agree there agree at the entry. -/
theorem sageTiledAt_congr {R R' : ℕ} {s : Mat R 128} {inv : Mat R 1} {x : Mat R 128} {wl : Mat 128 128} {b : Mat 1 128} {wr : Mat 128 128}
    {s' : Mat R' 128} {inv' : Mat R' 1} {x' : Mat R' 128} {wl' : Mat 128 128} {b' : Mat 1 128} {wr' : Mat 128 128}
    {p : Fin R} {p' : Fin R'} {q q' : Fin 128}
    (hs : ∀ k : Fin 128, s (ix2 p k) = s' (ix2 p' k)) (hinv : inv (ix2 p (0 : Fin 1)) = inv' (ix2 p' (0 : Fin 1)))
    (hx : ∀ k : Fin 128, x (ix2 p k) = x' (ix2 p' k)) (hwl : ∀ k : Fin 128, wl (ix2 k q) = wl' (ix2 k q'))
    (hb : b (ix2 (0 : Fin 1) q) = b' (ix2 (0 : Fin 1) q')) (hwr : ∀ k : Fin 128, wr (ix2 k q) = wr' (ix2 k q')) :
    sageTiledAt s inv x wl b wr p q = sageTiledAt s' inv' x' wl' b' wr' p' q' := by
  unfold sageTiledAt
  simp only [hs, hinv, hx, hwl, hb, hwr]

/-! ## The edge classifier -/

/-- The hidden layer before bias and ReLU, tiled arrangement: two 128-term products and three outer-product terms,
    added left to right. -/
def hiddenTiled {R : ℕ} (hs hd : Mat R 128) (ea : Mat R 3) (wa wb : Mat 128 128) (wc : Mat 3 128) (p : Fin R) (c : Fin 128) : EReal :=
  ((((∑ k : Fin 128, hs (ix2 p k) * wa (ix2 k c)) + ∑ k : Fin 128, hd (ix2 p k) * wb (ix2 k c))
    + ea (ix2 p (0 : Fin 3)) * wc (ix2 (0 : Fin 3) c)) + ea (ix2 p (1 : Fin 3)) * wc (ix2 (1 : Fin 3) c))
    + ea (ix2 p (2 : Fin 3)) * wc (ix2 (2 : Fin 3) c)

/-- The classifier's output for a row, given the hidden layer before bias and ReLU as a function `hid` of the hidden
    unit: ReLU of `hid + b1`, times the output column, plus the output bias. -/
def edgeOut (hid : Fin 128 → EReal) (b1 : Fin 128 → EReal) (w2 : Mat 128 1) (b2 : EReal) : EReal :=
  (∑ c : Fin 128, max (hid c + b1 c) zeroF * w2 (ix2 c (0 : Fin 1))) + b2

/-- The tiled classifier on every row. -/
def edgeTiled {R : ℕ} (hs hd : Mat R 128) (ea : Mat R 3) (wa wb : Mat 128 128) (wc : Mat 3 128) (b1 : Mat 1 128)
    (w2 : Mat 128 1) (b2 : Mat 1 1) : Mat R 1 := fun i =>
  edgeOut (hiddenTiled hs hd ea wa wb wc (i 0)) (fun c => b1 (ix2 (0 : Fin 1) c)) w2 (b2 (ix2 (0 : Fin 1) (0 : Fin 1)))

/-- The tiled hidden layer of a row reads only that row of `hs`, `hd` and `ea`. -/
theorem hiddenTiled_congr {R R' : ℕ} {hs hd : Mat R 128} {ea : Mat R 3} {wa wb : Mat 128 128} {wc : Mat 3 128}
    {hs' hd' : Mat R' 128} {ea' : Mat R' 3} {wa' wb' : Mat 128 128} {wc' : Mat 3 128} {p : Fin R} {p' : Fin R'} (c : Fin 128)
    (h1 : ∀ k : Fin 128, hs (ix2 p k) = hs' (ix2 p' k)) (h2 : ∀ k : Fin 128, hd (ix2 p k) = hd' (ix2 p' k))
    (h3 : ∀ k : Fin 3, ea (ix2 p k) = ea' (ix2 p' k)) (ha : ∀ k : Fin 128, wa (ix2 k c) = wa' (ix2 k c))
    (hb : ∀ k : Fin 128, wb (ix2 k c) = wb' (ix2 k c)) (hc : ∀ k : Fin 3, wc (ix2 k c) = wc' (ix2 k c)) :
    hiddenTiled hs hd ea wa wb wc p c = hiddenTiled hs' hd' ea' wa' wb' wc' p' c := by
  unfold hiddenTiled
  simp only [h1, h2, h3, ha, hb, hc]

/-- The classifier's output reads the hidden layer, the bias, the output column and the output bias entry by entry. -/
theorem edgeOut_congr {hid hid' b1 b1' : Fin 128 → EReal} {w2 w2' : Mat 128 1} {b2 b2' : EReal}
    (h1 : ∀ c, hid c = hid' c) (h2 : ∀ c, b1 c = b1' c) (h3 : ∀ c : Fin 128, w2 (ix2 c (0 : Fin 1)) = w2' (ix2 c (0 : Fin 1)))
    (h4 : b2 = b2') : edgeOut hid b1 w2 b2 = edgeOut hid' b1' w2' b2' := by
  unfold edgeOut
  simp only [h1, h2, h3, h4]

/-- A sum over 259 = 128 + 128 + 3 indices, split into its three stretches, the last written out. -/
theorem sum_259 (f : Fin 259 → EReal) :
    ∑ k : Fin 259, f k
      = ((((∑ k : Fin 128, f ⟨k.val, by omega⟩) + ∑ k : Fin 128, f ⟨128 + k.val, by omega⟩) + f ⟨256, by omega⟩) + f ⟨257, by omega⟩)
        + f ⟨258, by omega⟩ := by
  have h := Fin.sum_univ_add (fun i : Fin (128 + 128 + 3) => f i)
  have h2 := Fin.sum_univ_add (fun i : Fin (128 + 128) => f (Fin.castAdd 3 i))
  rw [show (∑ k : Fin 259, f k) = ∑ k : Fin (128 + 128 + 3), f k from rfl, h, h2, Fin.sum_univ_three]
  rw [← add_assoc, ← add_assoc]
  rfl

end Cert.Gnn

end
-- ==== Proof.LibColumns.lean ====
/-
  Two layout operations read at an index, for the column forms that a row reduction kept as a column
  (`keepdims`) produces: a vector of `a` entries cast to an `[a, 1]` column, and an `[a, 1]` column broadcast along
  `b` lanes.  Both read the operand at the row's own entry.
-/
import Idealize.ShloMosaic.Lib.Pipeline.Value
import Idealize.ShloMosaic.Lib.ValueIdx

namespace Cert.Columns

open Idealize.ShloMosaic Idealize.ShloMosaic.ValueIdx

variable {α : Type}

/-- An `[a]` array cast to an `[a, 1]` column reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.KernelBody.lean ====
/-
  The three kernel bodies' arithmetic read at an entry, on the extended reals.  A body is one pure term of the blocks it
  loads; at entry `(p, q)` each matrix product into a zero accumulator is the plain sum over the contracted index, a
  rounding to bfloat16 is the identity, a cast to the same shape is the identity, a column repeated along the lanes
  reads the column's entry of the row, a row repeated down the rows reads the row's entry of the column, and a slice
  reads the source at the shifted coordinate.  So the SAGE bodies are `sageTiledAt` of row `p` (the first under a
  ReLU) and the edge body is `edgeOut` over `hiddenTiled` of row `p`.
-/
import proofs.«129380_j80599356277028_2_alg».proof.Proof.Gen.KernelIdeal.Skeleton
import proofs.«129380_j80599356277028_2_alg».proof.Proof.Layers
import proofs.«129380_j80599356277028_2_alg».proof.Proof.LibColumns
import proofs.«129380_j80599356277028_2_alg».proof.Proof.LibMlpRows
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.Gnn
open scoped BigOperators

theorem dot5000 : dot_S5000x128_S128x128_S5000x128_1_0_0_1_n_n = DotDims.plain 5000 128 128 := rfl
theorem dot4000 : dot_S4000x128_S128x128_S4000x128_1_0_0_1_n_n = DotDims.plain 4000 128 128 := rfl
theorem dot4000x1 : dot_S4000x128_S128x1_S4000x1_1_0_0_1_n_n = DotDims.plain 4000 128 1 := rfl

/-- The first SAGE body at an entry: the tiled projection of the row, floored at zero. -/
theorem pay0_apply (v0 : FVec Ideal S5000x128 .f32) (v2 : FVec Ideal S5000x1 .f32) (v7 : FVec Ideal S5000x128 .f32)
    (v9 v12 : FVec Ideal S128x128 .bf16) (v16 : FVec Ideal S1x128 .f32) (p : Fin 5000) (q : Fin 128) :
    k0_pay1 (F := Ideal) v0 v2 v7 v9 v12 v16 (ix2 p q) = max (sageTiledAt v0 v2 v7 v9 v16 v12 p q) zeroF := by
  unfold k0_pay1 sageTiledAt
  simp only [dot5000, matmul, maximumf_apply, addf_apply, broadcast_apply, LibMlp.matmul_zero_plain, truncf_apply, mulf_apply,
    shapeCast_self, Columns.broadcastTo_a1_ab_apply, broadcastTo_1b_ab_apply]
  rfl

/-- The second SAGE body at an entry: the tiled projection of the row. -/
theorem pay1_apply (v0 : FVec Ideal S5000x128 .f32) (v2 : FVec Ideal S5000x1 .f32) (v7 : FVec Ideal S5000x128 .f32)
    (v10 v13 : FVec Ideal S128x128 .bf16) (v17 : FVec Ideal S1x128 .f32) (p : Fin 5000) (q : Fin 128) :
    k1_pay1 (F := Ideal) v0 v2 v7 v10 v13 v17 (ix2 p q) = sageTiledAt v0 v2 v7 v10 v17 v13 p q := by
  unfold k1_pay1 sageTiledAt
  simp only [dot5000, matmul, addf_apply, LibMlp.matmul_zero_plain, truncf_apply, mulf_apply,
    shapeCast_self, Columns.broadcastTo_a1_ab_apply, broadcastTo_1b_ab_apply]

/-- The edge body's hidden layer at an entry: ReLU of the five-piece sum plus the bias. -/
theorem pay2_hidden_apply (v0 v3 : FVec Ideal S4000x128 .f32) (v6 v9 : FVec Ideal S128x128 .bf16) (v13 : FVec Ideal S4000x3 .f32)
    (v14 : FVec Ideal S3x128 .f32) (v34 : FVec Ideal S1x128 .f32) (p : Fin 4000) (c : Fin 128) :
    k2_pay2 (F := Ideal) v0 v3 v6 v9 v13 v14 v34 (ix2 p c)
      = max (hiddenTiled v0 v3 v13 v6 v9 v14 p c + v34 (ix2 (0 : Fin 1) c)) zeroF := by
  have a0 : ∀ (X : FVec Ideal S4000x3 .f32) h, extractStridedSlice S4000x1 ![0, 0] X h (ix2 p (0 : Fin 1)) = X (ix2 p (0 : Fin 3)) :=
    fun X h => slice2_axis1_apply 0 X h p 0 0 rfl
  have a1 : ∀ (X : FVec Ideal S4000x3 .f32) h, extractStridedSlice S4000x1 ![0, 1] X h (ix2 p (0 : Fin 1)) = X (ix2 p (1 : Fin 3)) :=
    fun X h => slice2_axis1_apply 1 X h p 0 1 rfl
  have a2 : ∀ (X : FVec Ideal S4000x3 .f32) h, extractStridedSlice S4000x1 ![0, 2] X h (ix2 p (0 : Fin 1)) = X (ix2 p (2 : Fin 3)) :=
    fun X h => slice2_axis1_apply 2 X h p 0 2 rfl
  have r0 : ∀ (X : FVec Ideal S3x128 .f32) h, extractStridedSlice S1x128 ![0, 0] X h (ix2 (0 : Fin 1) c) = X (ix2 (0 : Fin 3) c) :=
    fun X h => slice2_axis0_apply 0 X h 0 c 0 rfl
  have r1 : ∀ (X : FVec Ideal S3x128 .f32) h, extractStridedSlice S1x128 ![1, 0] X h (ix2 (0 : Fin 1) c) = X (ix2 (1 : Fin 3) c) :=
    fun X h => slice2_axis0_apply 1 X h 0 c 1 rfl
  have r2 : ∀ (X : FVec Ideal S3x128 .f32) h, extractStridedSlice S1x128 ![2, 0] X h (ix2 (0 : Fin 1) c) = X (ix2 (2 : Fin 3) c) :=
    fun X h => slice2_axis0_apply 2 X h 0 c 2 rfl
  unfold k2_pay2 hiddenTiled
  simp only [dot4000, matmul, maximumf_apply, addf_apply, broadcast_apply, LibMlp.matmul_zero_plain, truncf_apply, mulf_apply,
    shapeCast_self, Columns.broadcastTo_a1_ab_apply, broadcastTo_1b_ab_apply, a0, a1, a2, r0, r1, r2]
  rfl

/-- The edge body at an entry: the classifier's output for the row. -/
theorem pay2_apply (v0 v3 : FVec Ideal S4000x128 .f32) (v6 v9 : FVec Ideal S128x128 .bf16) (v13 : FVec Ideal S4000x3 .f32)
    (v14 : FVec Ideal S3x128 .f32) (v34 : FVec Ideal S1x128 .f32) (v41 : FVec Ideal S128x1 .bf16) (v44 : FVec Ideal S1x1 .f32)
    (p : Fin 4000) (u : Fin 1) :
    k2_pay1 (F := Ideal) (k2_pay2 (F := Ideal) v0 v3 v6 v9 v13 v14 v34) v41 v44 (ix2 p u)
      = edgeOut (fun c => hiddenTiled v0 v3 v13 v6 v9 v14 p c) (fun c => v34 (ix2 (0 : Fin 1) c)) v41 (v44 (ix2 (0 : Fin 1) (0 : Fin 1))) := by
  obtain rfl : u = 0 := Subsingleton.elim _ _
  unfold k2_pay1 edgeOut
  simp only [dot4000x1, matmul, addf_apply, LibMlp.matmul_zero_plain, shapeCast_self, broadcastTo_1b_ab_apply, pay2_hidden_apply]

end Cert.KernelIdeal.Body

end
-- ==== Proof.KernelRegions.lean ====
/-
  Each tiled region's output array as ONE function of the arrays the region finds, whatever those arrays are.  A region
  cuts its row-indexed operands into tiles of consecutive rows (5000 rows for the SAGE projections, 4000 for the edge
  classifier), keeps the small weight and bias operands whole, and writes tile `t` of the output at point `t`.  An
  element of tile `t` sits in the array at row `t · tile + p`; the body's value there reads only row `p` of each
  row-indexed tile, that is row `t · tile + p` of the array; so tile `t` of the output is tile `t` of the row-wise
  function of the whole arrays, the tiles cover the array, and the array ends at that function.
-/
import proofs.«129380_j80599356277028_2_alg».proof.Proof.Gen.KernelIdeal.Frame
import proofs.«129380_j80599356277028_2_alg».proof.Proof.KernelBody
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.ShloMosaic.ValueIdx
open Idealize.SL.Sem Cert.Gnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the first SAGE projection, under a ReLU -/

/-- The first projection of every row of the arrays the region finds. -/
def G0 (c : Dev nD) : S50000x128.Idx → EReal := fun i =>
  max (sageTiled (V c main_v22 : S50000x128.Idx → EReal) (V c main_v12 : S50000x1.Idx → EReal) (V c main_arg0 : S50000x128.Idx → EReal)
    (V c main_v23 : S128x128.Idx → EReal) (V c main_v25 : S1x128.Idx → EReal) (V c main_v24 : S128x128.Idx → EReal) i) zeroF

/-- The index maps over the grid: the row-indexed windows move with the output, block `t` at point `t`; the others stay. -/
theorem idx0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

set_option maxHeartbeats 1000000 in
/-- What point `t` writes back is tile `t` of `G0`. -/
theorem flushed0 (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz, View.ld_unit_zero (S := S128x128) hz,
    View.ld_unit_zero (S := S1x128) hz]
  obtain ⟨e00, e01, e10, e11, e20, e21, e30, e31, e40, e41, e50, e51, e60, e61⟩ := idx0 t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (iblk0 V c 5 t) (iblk0 V c 4 t) (ix2 p q)
    = G0 V c (((cfg0.win 6).blk t).view.emb (ix2 p q))
  refine (Body.pay0_apply _ _ _ _ _ _ p q).trans ?_
  unfold G0 sageTiled
  refine congrArg (max · zeroF) (sageTiledAt_congr ?_ ?_ ?_ ?_ ?_ ?_)
  · intro k
    show (V c main_v22 : S50000x128.Idx → EReal) (((cfg0.win 0).blk t).view.emb (ix2 p k)) = (V c main_v22 : S50000x128.Idx → EReal) (ix2 _ k)
    refine congrArg _ (funext fun a => Fin.ext ?_)
    match a with
    | ⟨0, _⟩ => show win0_0.index t (0 : Fin 2) * 5000 + 1 * p.val = win0_6.index t (0 : Fin 2) * 5000 + 1 * p.val; omega
    | ⟨1, _⟩ => show win0_0.index t (1 : Fin 2) * 128 + 1 * k.val = k.val; omega
  · show (V c main_v12 : S50000x1.Idx → EReal) (((cfg0.win 1).blk t).view.emb (ix2 p (0 : Fin 1))) = (V c main_v12 : S50000x1.Idx → EReal) (ix2 _ (0 : Fin 1))
    refine congrArg _ (funext fun a => Fin.ext ?_)
    match a with
    | ⟨0, _⟩ => show win0_1.index t (0 : Fin 2) * 5000 + 1 * p.val = win0_6.index t (0 : Fin 2) * 5000 + 1 * p.val; omega
    | ⟨1, _⟩ => show win0_1.index t (1 : Fin 2) * 1 + 1 * 0 = 0; omega
  · intro k
    show (V c main_arg0 : S50000x128.Idx → EReal) (((cfg0.win 2).blk t).view.emb (ix2 p k)) = (V c main_arg0 : S50000x128.Idx → EReal) (ix2 _ k)
    refine congrArg _ (funext fun a => Fin.ext ?_)
    match a with
    | ⟨0, _⟩ => show win0_2.index t (0 : Fin 2) * 5000 + 1 * p.val = win0_6.index t (0 : Fin 2) * 5000 + 1 * p.val; omega
    | ⟨1, _⟩ => show win0_2.index t (1 : Fin 2) * 128 + 1 * k.val = k.val; omega
  · intro k
    show (V c main_v23 : S128x128.Idx → EReal) (((cfg0.win 3).blk t).view.emb (ix2 k q)) = (V c main_v23 : S128x128.Idx → EReal) (ix2 k _)
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = win0_6.index t (1 : Fin 2) * 128 + 1 * q.val; omega
  · show (V c main_v25 : S1x128.Idx → EReal) (((cfg0.win 4).blk t).view.emb (ix2 (0 : Fin 1) q)) = (V c main_v25 : S1x128.Idx → EReal) (ix2 (0 : Fin 1) _)
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = win0_6.index t (1 : Fin 2) * 128 + 1 * q.val; omega
  · intro k
    show (V c main_v24 : S128x128.Idx → EReal) (((cfg0.win 5).blk t).view.emb (ix2 k q)) = (V c main_v24 : S128x128.Idx → EReal) (ix2 k _)
    refine congrArg _ (funext fun a => Fin.ext ?_)
    match a with
    | ⟨0, _⟩ => show win0_5.index t (0 : Fin 2) * 128 + 1 * k.val = k.val; omega
    | ⟨1, _⟩ => show win0_5.index t (1 : Fin 2) * 128 + 1 * q.val = win0_6.index t (1 : Fin 2) * 128 + 1 * q.val; omega

/-- An index of the output array is in point `t`'s tile iff each coordinate is in the tile's range on its axis. -/
theorem mem_blk0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v26).slice (win0_6.rect t)).set ↔ _
  rw [View.set_slice_whole, Rect.mem_set_unit]
  exact Iff.rfl

/-- The output array after the region: the first projection of every row. -/
theorem final0 (c : Dev nD) : (dat0 V c).arrAt 6 cfg0.N = G0 V c :=
  (dat0 V c).arrAt_eq_of_cover 6 (G0 V c) (fun t _ => flushed0 V c t) fun i => by
    have hi0 : (i 0).val < 50000 := (i 0).isLt
    have hi1 : (i 1).val < 128 := (i 1).isLt
    have hN : grid0.N = 10 := N_0
    have ht : (i 0).val / 5000 < cfg0.N := by show _ < grid0.N; omega
    obtain ⟨e00, e01, e10, e11, e20, e21, e30, e31, e40, e41, e50, e51, e60, e61⟩ := idx0 ⟨(i 0).val / 5000, ht⟩
    have q0 : win0_6.index ⟨(i 0).val / 5000, ht⟩ (0 : Fin 2) = (i 0).val / 5000 := e60
    refine ⟨⟨(i 0).val / 5000, ht⟩, flush0_6 _, ?_⟩
    rw [mem_blk0]
    intro a
    match a with
    | ⟨0, _⟩ => show win0_6.index ⟨(i 0).val / 5000, ht⟩ (0 : Fin 2) * 5000 ≤ (i 0).val ∧ (i 0).val < win0_6.index ⟨(i 0).val / 5000, ht⟩ (0 : Fin 2) * 5000 + 5000; omega
    | ⟨1, _⟩ => show win0_6.index ⟨(i 0).val / 5000, ht⟩ (1 : Fin 2) * 128 ≤ (i 1).val ∧ (i 1).val < win0_6.index ⟨(i 0).val / 5000, ht⟩ (1 : Fin 2) * 128 + 128; omega

/-! ## Region 1: the second SAGE projection -/

/-- The second projection of every row of the arrays the region finds. -/
def G1 (c : Dev nD) : S50000x128.Idx → EReal :=
  sageTiled (V c main_v36 : S50000x128.Idx → EReal) (V c main_v12 : S50000x1.Idx → EReal) (V c main_v26 : S50000x128.Idx → EReal)
    (V c main_v37 : S128x128.Idx → EReal) (V c main_v39 : S1x128.Idx → EReal) (V c main_v38 : S128x128.Idx → EReal)

/-- The index maps over the grid: the row-indexed windows move with the output, block `t` at point `t`; the others stay. -/
theorem idx1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

set_option maxHeartbeats 1000000 in
/-- What point `t` writes back is tile `t` of `G1`. -/
theorem flushed1 (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x128) hz,
    View.ld_unit_zero (S := S1x128) hz]
  obtain ⟨e00, e01, e10, e11, e20, e21, e30, e31, e40, e41, e50, e51, e60, e61⟩ := idx1 t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 5 t) (iblk1 V c 4 t) (ix2 p q)
    = G1 V c (((cfg1.win 6).blk t).view.emb (ix2 p q))
  refine (Body.pay1_apply _ _ _ _ _ _ p q).trans ?_
  unfold G1 sageTiled
  refine sageTiledAt_congr ?_ ?_ ?_ ?_ ?_ ?_
  · intro k
    show (V c main_v36 : S50000x128.Idx → EReal) (((cfg1.win 0).blk t).view.emb (ix2 p k)) = (V c main_v36 : S50000x128.Idx → EReal) (ix2 _ k)
    refine congrArg _ (funext fun a => Fin.ext ?_)
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * k.val = k.val; omega
  · show (V c main_v12 : S50000x1.Idx → EReal) (((cfg1.win 1).blk t).view.emb (ix2 p (0 : Fin 1))) = (V c main_v12 : S50000x1.Idx → EReal) (ix2 _ (0 : Fin 1))
    refine congrArg _ (funext fun a => Fin.ext ?_)
    match a with
    | ⟨0, _⟩ => show win1_1.index t (0 : Fin 2) * 5000 + 1 * p.val = win1_6.index t (0 : Fin 2) * 5000 + 1 * p.val; omega
    | ⟨1, _⟩ => show win1_1.index t (1 : Fin 2) * 1 + 1 * 0 = 0; omega
  · intro k
    show (V c main_v26 : S50000x128.Idx → EReal) (((cfg1.win 2).blk t).view.emb (ix2 p k)) = (V c main_v26 : S50000x128.Idx → EReal) (ix2 _ k)
    refine congrArg _ (funext fun a => Fin.ext ?_)
    match a with
    | ⟨0, _⟩ => show win1_2.index t (0 : Fin 2) * 5000 + 1 * p.val = win1_6.index t (0 : Fin 2) * 5000 + 1 * p.val; omega
    | ⟨1, _⟩ => show win1_2.index t (1 : Fin 2) * 128 + 1 * k.val = k.val; omega
  · intro k
    show (V c main_v37 : S128x128.Idx → EReal) (((cfg1.win 3).blk t).view.emb (ix2 k q)) = (V c main_v37 : S128x128.Idx → EReal) (ix2 k _)
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = win1_6.index t (1 : Fin 2) * 128 + 1 * q.val; omega
  · show (V c main_v39 : S1x128.Idx → EReal) (((cfg1.win 4).blk t).view.emb (ix2 (0 : Fin 1) q)) = (V c main_v39 : S1x128.Idx → EReal) (ix2 (0 : Fin 1) _)
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = win1_6.index t (1 : Fin 2) * 128 + 1 * q.val; omega
  · intro k
    show (V c main_v38 : S128x128.Idx → EReal) (((cfg1.win 5).blk t).view.emb (ix2 k q)) = (V c main_v38 : S128x128.Idx → EReal) (ix2 k _)
    refine congrArg _ (funext fun a => Fin.ext ?_)
    match a with
    | ⟨0, _⟩ => show win1_5.index t (0 : Fin 2) * 128 + 1 * k.val = k.val; omega
    | ⟨1, _⟩ => show win1_5.index t (1 : Fin 2) * 128 + 1 * q.val = win1_6.index t (1 : Fin 2) * 128 + 1 * q.val; omega

/-- An index of the output array is in point `t`'s tile iff each coordinate is in the tile's range on its axis. -/
theorem mem_blk1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v40).slice (win1_6.rect t)).set ↔ _
  rw [View.set_slice_whole, Rect.mem_set_unit]
  exact Iff.rfl

/-- The output array after the region: the second projection of every row. -/
theorem final1 (c : Dev nD) : (dat1 V c).arrAt 6 cfg1.N = G1 V c :=
  (dat1 V c).arrAt_eq_of_cover 6 (G1 V c) (fun t _ => flushed1 V c t) fun i => by
    have hi0 : (i 0).val < 50000 := (i 0).isLt
    have hi1 : (i 1).val < 128 := (i 1).isLt
    have hN : grid1.N = 10 := N_1
    have ht : (i 0).val / 5000 < cfg1.N := by show _ < grid1.N; omega
    obtain ⟨e00, e01, e10, e11, e20, e21, e30, e31, e40, e41, e50, e51, e60, e61⟩ := idx1 ⟨(i 0).val / 5000, ht⟩
    have q0 : win1_6.index ⟨(i 0).val / 5000, ht⟩ (0 : Fin 2) = (i 0).val / 5000 := e60
    refine ⟨⟨(i 0).val / 5000, ht⟩, flush1_6 _, ?_⟩
    rw [mem_blk1]
    intro a
    match a with
    | ⟨0, _⟩ => show win1_6.index ⟨(i 0).val / 5000, ht⟩ (0 : Fin 2) * 5000 ≤ (i 0).val ∧ (i 0).val < win1_6.index ⟨(i 0).val / 5000, ht⟩ (0 : Fin 2) * 5000 + 5000; omega
    | ⟨1, _⟩ => show win1_6.index ⟨(i 0).val / 5000, ht⟩ (1 : Fin 2) * 128 ≤ (i 1).val ∧ (i 1).val < win1_6.index ⟨(i 0).val / 5000, ht⟩ (1 : Fin 2) * 128 + 128; omega

/-! ## Region 2: the edge classifier -/

/-- The classifier of every row of the arrays the region finds. -/
def G2 (c : Dev nD) : S800000x1.Idx → EReal :=
  edgeTiled (V c main_v47 : S800000x128.Idx → EReal) (V c main_v54 : S800000x128.Idx → EReal) (V c main_arg2 : S800000x3.Idx → EReal)
    (V c main_v56 : S128x128.Idx → EReal) (V c main_v58 : S128x128.Idx → EReal) (V c main_v59 : S3x128.Idx → EReal)
    (V c main_v61 : S1x128.Idx → EReal) (V c main_v60 : S128x1.Idx → EReal) (V c main_v62 : S1x1.Idx → EReal)

/-- The index maps over the grid: the three row-indexed windows move with the output, block `t` at point `t`; the others stay. -/
theorem idx2 : ∀ t : Fin cfg2.N,
    win2_0.index t (0 : Fin 2) = win2_9.index t (0 : Fin 2) ∧ win2_0.index t (1 : Fin 2) = 0
    ∧ win2_1.index t (0 : Fin 2) = win2_9.index t (0 : Fin 2) ∧ win2_1.index t (1 : Fin 2) = 0
    ∧ win2_2.index t (0 : Fin 2) = win2_9.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

set_option maxHeartbeats 2000000 in
/-- What point `t` writes back is tile `t` of `G2`. -/
theorem flushed2 (c : Dev nD) (t : Fin cfg2.N) :
    (dat2 V c).flushed 9 t = ((cfg2.win 9).blk t).view.read (Elt Ideal) (G2 V c) := by
  show (cfg2.win 9).cut (grid2.coords t) ((dat2 V c).after 9 t) = _
  rw [after2_9]
  unfold out2_9
  rw [View.canon_unit_zero hz]
  simp only [View.ld_unit_zero (S := S4000x128) hz, View.ld_unit_zero (S := S4000x3) hz, View.ld_unit_zero (S := S128x128) hz,
    View.ld_unit_zero (S := S3x128) hz, View.ld_unit_zero (S := S1x128) hz, View.ld_unit_zero (S := S128x1) hz,
    View.ld_unit_zero (S := S1x1) hz]
  obtain ⟨e00, e01, e10, e11, e20, e21, e30, e31, e40, e41, e50, e51, e60, e61, e70, e71, e80, e81, e90, e91⟩ := idx2 t
  have b3 : ∀ y : S128x128.Idx, iblk2 V c 3 t y = (V c main_v56 : S128x128.Idx → EReal) y := fun y => by
    show (V c main_v56 : S128x128.Idx → EReal) (((cfg2.win 3).blk t).view.emb y) = (V c main_v56 : S128x128.Idx → EReal) y
    refine congrArg _ (funext fun a => Fin.ext ?_)
    match a with
    | ⟨0, _⟩ => show win2_3.index t (0 : Fin 2) * 128 + 1 * (y 0).val = (y 0).val; omega
    | ⟨1, _⟩ => show win2_3.index t (1 : Fin 2) * 128 + 1 * (y 1).val = (y 1).val; omega
  have b4 : ∀ y : S128x128.Idx, iblk2 V c 4 t y = (V c main_v58 : S128x128.Idx → EReal) y := fun y => by
    show (V c main_v58 : S128x128.Idx → EReal) (((cfg2.win 4).blk t).view.emb y) = (V c main_v58 : S128x128.Idx → EReal) y
    refine congrArg _ (funext fun a => Fin.ext ?_)
    match a with
    | ⟨0, _⟩ => show win2_4.index t (0 : Fin 2) * 128 + 1 * (y 0).val = (y 0).val; omega
    | ⟨1, _⟩ => show win2_4.index t (1 : Fin 2) * 128 + 1 * (y 1).val = (y 1).val; omega
  have b5 : ∀ y : S3x128.Idx, iblk2 V c 5 t y = (V c main_v59 : S3x128.Idx → EReal) y := fun y => by
    show (V c main_v59 : S3x128.Idx → EReal) (((cfg2.win 5).blk t).view.emb y) = (V c main_v59 : S3x128.Idx → EReal) y
    refine congrArg _ (funext fun a => Fin.ext ?_)
    match a with
    | ⟨0, _⟩ => show win2_5.index t (0 : Fin 2) * 3 + 1 * (y 0).val = (y 0).val; omega
    | ⟨1, _⟩ => show win2_5.index t (1 : Fin 2) * 128 + 1 * (y 1).val = (y 1).val; omega
  have b6 : ∀ y : S1x128.Idx, iblk2 V c 6 t y = (V c main_v61 : S1x128.Idx → EReal) y := fun y => by
    show (V c main_v61 : S1x128.Idx → EReal) (((cfg2.win 6).blk t).view.emb y) = (V c main_v61 : S1x128.Idx → EReal) y
    refine congrArg _ (funext fun a => Fin.ext ?_)
    match a with
    | ⟨0, _⟩ => show win2_6.index t (0 : Fin 2) * 1 + 1 * (y 0).val = (y 0).val; omega
    | ⟨1, _⟩ => show win2_6.index t (1 : Fin 2) * 128 + 1 * (y 1).val = (y 1).val; omega
  have b7 : ∀ y : S128x1.Idx, iblk2 V c 7 t y = (V c main_v60 : S128x1.Idx → EReal) y := fun y => by
    show (V c main_v60 : S128x1.Idx → EReal) (((cfg2.win 7).blk t).view.emb y) = (V c main_v60 : S128x1.Idx → EReal) y
    refine congrArg _ (funext fun a => Fin.ext ?_)
    match a with
    | ⟨0, _⟩ => show win2_7.index t (0 : Fin 2) * 128 + 1 * (y 0).val = (y 0).val; omega
    | ⟨1, _⟩ => show win2_7.index t (1 : Fin 2) * 1 + 1 * (y 1).val = (y 1).val; omega
  have b8 : ∀ y : S1x1.Idx, iblk2 V c 8 t y = (V c main_v62 : S1x1.Idx → EReal) y := fun y => by
    show (V c main_v62 : S1x1.Idx → EReal) (((cfg2.win 8).blk t).view.emb y) = (V c main_v62 : S1x1.Idx → EReal) y
    refine congrArg _ (funext fun a => Fin.ext ?_)
    match a with
    | ⟨0, _⟩ => show win2_8.index t (0 : Fin 2) * 1 + 1 * (y 0).val = (y 0).val; omega
    | ⟨1, _⟩ => show win2_8.index t (1 : Fin 2) * 1 + 1 * (y 1).val = (y 1).val; omega
  funext j
  obtain ⟨p, u, rfl⟩ : ∃ (p : Fin 4000) (u : Fin 1), j = ix2 p u := ⟨j 0, j 1, eq_ix2 j⟩
  show k2_pay1 (F := Ideal) (k2_pay2 (F := Ideal) (iblk2 V c 0 t) (iblk2 V c 1 t) (iblk2 V c 3 t) (iblk2 V c 4 t) (iblk2 V c 2 t) (iblk2 V c 5 t) (iblk2 V c 6 t))
      (iblk2 V c 7 t) (iblk2 V c 8 t) (ix2 p u)
    = G2 V c (((cfg2.win 9).blk t).view.emb (ix2 p u))
  refine (Body.pay2_apply _ _ _ _ _ _ _ _ _ p u).trans ?_
  unfold G2 edgeTiled
  refine edgeOut_congr (fun cc => hiddenTiled_congr cc ?_ ?_ ?_ (fun k => b3 _) (fun k => b4 _) (fun k => b5 _)) (fun cc => b6 _) (fun cc => b7 _) (b8 _)
  · intro k
    show (V c main_v47 : S800000x128.Idx → EReal) (((cfg2.win 0).blk t).view.emb (ix2 p k)) = (V c main_v47 : S800000x128.Idx → EReal) (ix2 _ k)
    refine congrArg _ (funext fun a => Fin.ext ?_)
    match a with
    | ⟨0, _⟩ => show win2_0.index t (0 : Fin 2) * 4000 + 1 * p.val = win2_9.index t (0 : Fin 2) * 4000 + 1 * p.val; omega
    | ⟨1, _⟩ => show win2_0.index t (1 : Fin 2) * 128 + 1 * k.val = k.val; omega
  · intro k
    show (V c main_v54 : S800000x128.Idx → EReal) (((cfg2.win 1).blk t).view.emb (ix2 p k)) = (V c main_v54 : S800000x128.Idx → EReal) (ix2 _ k)
    refine congrArg _ (funext fun a => Fin.ext ?_)
    match a with
    | ⟨0, _⟩ => show win2_1.index t (0 : Fin 2) * 4000 + 1 * p.val = win2_9.index t (0 : Fin 2) * 4000 + 1 * p.val; omega
    | ⟨1, _⟩ => show win2_1.index t (1 : Fin 2) * 128 + 1 * k.val = k.val; omega
  · intro k
    show (V c main_arg2 : S800000x3.Idx → EReal) (((cfg2.win 2).blk t).view.emb (ix2 p k)) = (V c main_arg2 : S800000x3.Idx → EReal) (ix2 _ k)
    refine congrArg _ (funext fun a => Fin.ext ?_)
    match a with
    | ⟨0, _⟩ => show win2_2.index t (0 : Fin 2) * 4000 + 1 * p.val = win2_9.index t (0 : Fin 2) * 4000 + 1 * p.val; omega
    | ⟨1, _⟩ => show win2_2.index t (1 : Fin 2) * 3 + 1 * k.val = k.val; omega

/-- An index of the output array is in point `t`'s tile iff each coordinate is in the tile's range on its axis. -/
theorem mem_blk2 (t : Fin cfg2.N) (i : S800000x1.Idx) :
    i ∈ ((cfg2.win 9).blk t).view.set ↔ ∀ a : Fin 2, win2_9.index t a * S4000x1.size a ≤ (i a).val ∧ (i a).val < win2_9.index t a * S4000x1.size a + S4000x1.size a := by
  show i ∈ ((View.whole main_v63).slice (win2_9.rect t)).set ↔ _
  rw [View.set_slice_whole, Rect.mem_set_unit]
  exact Iff.rfl

/-- The output array after the region: the classifier of every row. -/
theorem final2 (c : Dev nD) : (dat2 V c).arrAt 9 cfg2.N = G2 V c :=
  (dat2 V c).arrAt_eq_of_cover 9 (G2 V c) (fun t _ => flushed2 V c t) fun i => by
    have hi0 : (i 0).val < 800000 := (i 0).isLt
    have hi1 : (i 1).val < 1 := (i 1).isLt
    have hN : grid2.N = 200 := N_2
    have ht : (i 0).val / 4000 < cfg2.N := by show _ < grid2.N; omega
    obtain ⟨e00, e01, e10, e11, e20, e21, e30, e31, e40, e41, e50, e51, e60, e61, e70, e71, e80, e81, e90, e91⟩ := idx2 ⟨(i 0).val / 4000, ht⟩
    have q0 : win2_9.index ⟨(i 0).val / 4000, ht⟩ (0 : Fin 2) = (i 0).val / 4000 := e90
    refine ⟨⟨(i 0).val / 4000, ht⟩, flush2_9 _, ?_⟩
    rw [mem_blk2]
    intro a
    match a with
    | ⟨0, _⟩ => show win2_9.index ⟨(i 0).val / 4000, ht⟩ (0 : Fin 2) * 4000 ≤ (i 0).val ∧ (i 0).val < win2_9.index ⟨(i 0).val / 4000, ht⟩ (0 : Fin 2) * 4000 + 4000; omega
    | ⟨1, _⟩ => show win2_9.index ⟨(i 0).val / 4000, ht⟩ (1 : Fin 2) * 1 ≤ (i 1).val ∧ (i 1).val < win2_9.index ⟨(i 0).val / 4000, ht⟩ (1 : Fin 2) * 1 + 1; omega

end Cert.KernelIdeal.Regions

end
-- ==== Proof.RefLayers.lean ====
/-
  The reference's three dense stages read at an entry, on the extended reals.
  * A SAGE projection as the host spells it — the neighbour sums divided by the clamped degree (a vector broadcast to a
    column and then along the lanes), a `dot_general` with the first weight, the bias (a vector broadcast to a row and
    then down the rows), and the `dot_general` of the node features with the second weight added last — is
    `sagePlainAt` of the row.
  * The edge classifier is a two-layer perceptron of the joined row `[h(src) | h(dst) | edge features]`; the joined row
    read at a column below 128, between 128 and 256, or from 256 on, is the first, second or third piece at the column
    less the widths before it.
-/
import proofs.«129380_j80599356277028_2_alg».proof.Proof.Gen.ReferenceIdeal.Read
import proofs.«129380_j80599356277028_2_alg».proof.Proof.Layers
import proofs.«129380_j80599356277028_2_alg».proof.Proof.LibMlpRows
import Idealize.ShloMosaic.Lib.IdealHost
import Idealize.ShloMosaic.Lib.ValueLayout
import Idealize.ShloMosaic.Lib.Pipeline.Value

noncomputable section

namespace Cert.ReferenceIdeal.RefValue

open Cert.ReferenceIdeal Cert.ReferenceIdeal.Read Idealize.ShloMosaic Idealize.ShloMosaic.ValueIdx Cert.Gnn
open scoped BigOperators

/-- The host's SAGE projection at an entry, generic in the number of rows. -/
theorem host_sage_apply {R : ℕ}
    (d : DotDims ⟨2, ![R, 128]⟩ ⟨2, ![128, 128]⟩ ⟨2, ![R, 128]⟩) (hd : d = DotDims.plain R 128 128)
    (s : FVec Ideal ⟨2, ![R, 128]⟩ .f32) (dg : FVec Ideal ⟨1, ![R]⟩ .f32) (x : FVec Ideal ⟨2, ![R, 128]⟩ .f32)
    (wl wr : FVec Ideal ⟨2, ![128, 128]⟩ .f32) (b : FVec Ideal ⟨1, ![128]⟩ .f32)
    (h1 : (⟨1, ![R]⟩ : Shape).BroadcastsInDim ⟨2, ![R, 1]⟩ ![0]) (h2 : (⟨2, ![R, 1]⟩ : Shape).BroadcastsInDim ⟨2, ![R, 128]⟩ ![0, 1])
    (h3 : (⟨1, ![128]⟩ : Shape).BroadcastsInDim ⟨2, ![1, 128]⟩ ![1]) (h4 : (⟨2, ![1, 128]⟩ : Shape).BroadcastsInDim ⟨2, ![R, 128]⟩ ![0, 1])
    (p : Fin R) (q : Fin 128) :
    addf (addf (Host.dotGeneral d none (Host.divf s (broadcastInDim ⟨2, ![R, 128]⟩ ![0, 1] h2 (broadcastInDim ⟨2, ![R, 1]⟩ ![0] h1 dg))) wl)
        (broadcastInDim ⟨2, ![R, 128]⟩ ![0, 1] h4 (broadcastInDim ⟨2, ![1, 128]⟩ ![1] h3 b))) (Host.dotGeneral d none x wr) (ix2 p q)
      = sagePlainAt s (fun p => dg (ix1 p)) x wl (fun q => b (ix1 q)) wr p q := by
  subst hd
  have deg : ∀ (r : Fin R) (k : Fin 128),
      broadcastInDim ⟨2, ![R, 128]⟩ ![0, 1] h2 (broadcastInDim ⟨2, ![R, 1]⟩ ![0] h1 dg) (ix2 r k) = dg (ix1 r) := fun r k => by
    rw [broadcastInDim_apply ![0, 1] h2 _ (ix2 r k) (ix2 r (0 : Fin 1)) (fun a => by
      match a with
      | ⟨0, _⟩ => show r.val = if R = 1 then 0 else r.val; split <;> [(have := r.isLt; omega); rfl]
      | ⟨1, _⟩ => rfl)]
    exact broadcastInDim_apply ![0] h1 _ (ix2 r (0 : Fin 1)) (ix1 r) (fun a => by
      match a with
      | ⟨0, _⟩ => show r.val = if R = 1 then 0 else r.val; split <;> [(have := r.isLt; omega); rfl])
  have bias : ∀ (r : Fin R) (k : Fin 128),
      broadcastInDim ⟨2, ![R, 128]⟩ ![0, 1] h4 (broadcastInDim ⟨2, ![1, 128]⟩ ![1] h3 b) (ix2 r k) = b (ix1 k) := fun r k => by
    rw [broadcastInDim_apply ![0, 1] h4 _ (ix2 r k) (ix2 (0 : Fin 1) k) (fun a => by
      match a with
      | ⟨0, _⟩ => rfl
      | ⟨1, _⟩ => show k.val = if (128 : ℕ) = 1 then 0 else k.val; rw [if_neg (by decide)])]
    exact broadcastInDim_apply ![1] h3 _ (ix2 (0 : Fin 1) k) (ix1 k) (fun a => by
      match a with
      | ⟨0, _⟩ => show k.val = if (128 : ℕ) = 1 then 0 else k.val; rw [if_neg (by decide)])
  simp only [sagePlainAt, Host.dotGeneral, addf_apply, LibMlp.dotGeneral_plain, hostDivf_apply, deg, bias]

/-- The first layer at an entry: the plain projection of the row, floored at zero. -/
theorem layer1_apply (x0 : FVec Ideal S50000x128 .f32) (x1 : IVec S2x800000 32) (x3 : FVec Ideal S128x128 .f32) (x4 : FVec Ideal S128 .f32)
    (x5 : FVec Ideal S128x128 .f32) (p : Fin 50000) (q : Fin 128) :
    val_main_v29 (F := Ideal) x0 x1 x3 x4 x5 (ix2 p q)
      = max (sagePlainAt (val_main_v13 (F := Ideal) x0 x1) (fun p => val_main_v19 (F := Ideal) x1 (ix1 p)) x0 x3 (fun q => x4 (ix1 q)) x5 p q) zeroF := by
  have hz : val_main_call0_v0 (F := Ideal) (ix2 p q) = zeroF := by rw [val_main_call0_v0_apply]; rfl
  rw [val_main_v29_apply, hz]
  refine congrArg (max · zeroF) ?_
  exact host_sage_apply dot_S50000x128_S128x128_S50000x128_1_0_0_1_n_n rfl (val_main_v13 (F := Ideal) x0 x1) (val_main_v19 (F := Ideal) x1)
    x0 x3 x5 x4 _ _ _ _ p q

/-- The second layer at an entry: the plain projection of the row of the first layer's result. -/
theorem layer2_apply (x0 : FVec Ideal S50000x128 .f32) (x1 : IVec S2x800000 32) (x3 : FVec Ideal S128x128 .f32) (x4 : FVec Ideal S128 .f32)
    (x5 x6 : FVec Ideal S128x128 .f32) (x7 : FVec Ideal S128 .f32) (x8 : FVec Ideal S128x128 .f32) (p : Fin 50000) (q : Fin 128) :
    val_main_v54 (F := Ideal) x0 x1 x3 x4 x5 x6 x7 x8 (ix2 p q)
      = sagePlainAt (val_main_v39 (F := Ideal) x0 x1 x3 x4 x5) (fun p => val_main_v45 (F := Ideal) x1 (ix1 p))
          (val_main_v29 (F := Ideal) x0 x1 x3 x4 x5) x6 (fun q => x7 (ix1 q)) x8 p q :=
  host_sage_apply dot_S50000x128_S128x128_S50000x128_1_0_0_1_n_n rfl (val_main_v39 (F := Ideal) x0 x1 x3 x4 x5) (val_main_v45 (F := Ideal) x1)
    (val_main_v29 (F := Ideal) x0 x1 x3 x4 x5) x6 x8 x7 _ _ _ _ p q

/-- The clamped degree, at either of its two printings, is not zero. -/
theorem deg1_ne_zero (x1 : IVec S2x800000 32) (p : Fin 50000) : val_main_v19 (F := Ideal) x1 (ix1 p) ≠ 0 := by
  have h : val_main_v18 (F := Ideal) (ix1 p) = oneF := by rw [val_main_v18_apply]; rfl
  rw [val_main_v19_apply, h]
  exact max_one_ne_zero _
theorem deg2_ne_zero (x1 : IVec S2x800000 32) (p : Fin 50000) : val_main_v45 (F := Ideal) x1 (ix1 p) ≠ 0 := by
  have h : val_main_v44 (F := Ideal) (ix1 p) = oneF := by rw [val_main_v44_apply]; rfl
  rw [val_main_v45_apply, h]
  exact max_one_ne_zero _

/-- The two printings of the clamped degree are one array. -/
theorem deg2_eq_deg1 (x1 : IVec S2x800000 32) : val_main_v45 (F := Ideal) x1 = val_main_v19 (F := Ideal) x1 := rfl

end Cert.ReferenceIdeal.RefValue

end
-- ==== Proof.RefEdge.lean ====
/-
  The reference's edge classifier read at an entry.  The joined row `[h(src) | h(dst) | edge features]` has 259 entries;
  read at a column `j` it is the first piece at `j` when `j < 128`, the second at `j − 128` when `128 ≤ j < 256`, the
  third at `j − 256` from there on.  The classifier is a two-layer perceptron of that row; its hidden layer's sum over
  the 259 columns, split at 128 and 256, is the tiled program's two 128-term products plus three single terms.
-/
import proofs.«129380_j80599356277028_2_alg».proof.Proof.Gen.ReferenceIdeal.Read
import proofs.«129380_j80599356277028_2_alg».proof.Proof.Layers
import proofs.«129380_j80599356277028_2_alg».proof.Proof.LibMlpRows
import Idealize.ShloMosaic.Lib.Pipeline.Value

noncomputable section

namespace Cert.ReferenceIdeal.RefEdge

open Cert.ReferenceIdeal Cert.ReferenceIdeal.Read Idealize.ShloMosaic Idealize.ShloMosaic.ValueIdx Cert.Gnn
open scoped BigOperators

/-- A sum of products over the 259 joined columns is the tiled hidden layer, when the joined row and the weight matrix
    read piece by piece as the tiled program's operands do. -/
theorem joined_hidden {R : ℕ} (cat : Mat R 259) (hs hd : Mat R 128) (ea : Mat R 3) (w : Mat 259 128) (wa wb : Mat 128 128) (wc : Mat 3 128)
    (p : Fin R) (c : Fin 128)
    (h1 : ∀ k : Fin 128, cat (ix2 p (⟨k.val, by omega⟩ : Fin 259)) = hs (ix2 p k))
    (h2 : ∀ k : Fin 128, cat (ix2 p (⟨128 + k.val, by omega⟩ : Fin 259)) = hd (ix2 p k))
    (h30 : cat (ix2 p (⟨256, by omega⟩ : Fin 259)) = ea (ix2 p (0 : Fin 3)))
    (h31 : cat (ix2 p (⟨257, by omega⟩ : Fin 259)) = ea (ix2 p (1 : Fin 3)))
    (h32 : cat (ix2 p (⟨258, by omega⟩ : Fin 259)) = ea (ix2 p (2 : Fin 3)))
    (ha : ∀ k : Fin 128, w (ix2 (⟨k.val, by omega⟩ : Fin 259) c) = wa (ix2 k c))
    (hb : ∀ k : Fin 128, w (ix2 (⟨128 + k.val, by omega⟩ : Fin 259) c) = wb (ix2 k c))
    (hc0 : w (ix2 (⟨256, by omega⟩ : Fin 259) c) = wc (ix2 (0 : Fin 3) c))
    (hc1 : w (ix2 (⟨257, by omega⟩ : Fin 259) c) = wc (ix2 (1 : Fin 3) c))
    (hc2 : w (ix2 (⟨258, by omega⟩ : Fin 259) c) = wc (ix2 (2 : Fin 3) c)) :
    ∑ j : Fin 259, cat (ix2 p j) * w (ix2 j c) = hiddenTiled hs hd ea wa wb wc p c := by
  rw [sum_259 (fun j => cat (ix2 p j) * w (ix2 j c))]
  unfold hiddenTiled
  simp only [h1, h2, h30, h31, h32, ha, hb, hc0, hc1, hc2]

/-- The joined row at a column of its first stretch. -/
theorem cat_left (x0 : FVec Ideal S50000x128 .f32) (x1 : IVec S2x800000 32) (x2 : FVec Ideal S800000x3 .f32) (x3 : FVec Ideal S128x128 .f32)
    (x4 : FVec Ideal S128 .f32) (x5 x6 : FVec Ideal S128x128 .f32) (x7 : FVec Ideal S128 .f32) (x8 : FVec Ideal S128x128 .f32)
    (p : Fin 800000) (k : Fin 128) (j : Fin 259) (hj : j.val = k.val) :
    val_main_v69 (F := Ideal) x0 x1 x2 x3 x4 x5 x6 x7 x8 (ix2 p j) = val_main_v61 (F := Ideal) x0 x1 x3 x4 x5 x6 x7 x8 (ix2 p k) := by
  unfold val_main_v69
  exact concatenate_apply_piece (1 : Fin 2)
    [⟨S800000x128, val_main_v61 (F := Ideal) x0 x1 x3 x4 x5 x6 x7 x8⟩, ⟨S800000x128, val_main_v68 (F := Ideal) x0 x1 x3 x4 x5 x6 x7 x8⟩, ⟨S800000x3, x2⟩] _ (ix2 p j) 0 (by show 0 < 3; omega)
    S800000x128 _ rfl rfl 0 rfl (ix2 p k)
    (fun b hb => by match b with | ⟨0, _⟩ => rfl | ⟨1, _⟩ => exact absurd (Fin.ext rfl) hb) (by show 0 + k.val = j.val; omega)

/-- The joined row at a column of its second stretch. -/
theorem cat_mid (x0 : FVec Ideal S50000x128 .f32) (x1 : IVec S2x800000 32) (x2 : FVec Ideal S800000x3 .f32) (x3 : FVec Ideal S128x128 .f32)
    (x4 : FVec Ideal S128 .f32) (x5 x6 : FVec Ideal S128x128 .f32) (x7 : FVec Ideal S128 .f32) (x8 : FVec Ideal S128x128 .f32)
    (p : Fin 800000) (k : Fin 128) (j : Fin 259) (hj : j.val = 128 + k.val) :
    val_main_v69 (F := Ideal) x0 x1 x2 x3 x4 x5 x6 x7 x8 (ix2 p j) = val_main_v68 (F := Ideal) x0 x1 x3 x4 x5 x6 x7 x8 (ix2 p k) := by
  unfold val_main_v69
  exact concatenate_apply_piece (1 : Fin 2)
    [⟨S800000x128, val_main_v61 (F := Ideal) x0 x1 x3 x4 x5 x6 x7 x8⟩, ⟨S800000x128, val_main_v68 (F := Ideal) x0 x1 x3 x4 x5 x6 x7 x8⟩, ⟨S800000x3, x2⟩] _ (ix2 p j) 1 (by show 1 < 3; omega)
    S800000x128 _ rfl rfl 128 rfl (ix2 p k)
    (fun b hb => by match b with | ⟨0, _⟩ => rfl | ⟨1, _⟩ => exact absurd (Fin.ext rfl) hb) (by show 128 + k.val = j.val; omega)

/-- The joined row at a column of its last stretch. -/
theorem cat_right (x0 : FVec Ideal S50000x128 .f32) (x1 : IVec S2x800000 32) (x2 : FVec Ideal S800000x3 .f32) (x3 : FVec Ideal S128x128 .f32)
    (x4 : FVec Ideal S128 .f32) (x5 x6 : FVec Ideal S128x128 .f32) (x7 : FVec Ideal S128 .f32) (x8 : FVec Ideal S128x128 .f32)
    (p : Fin 800000) (k : Fin 3) (j : Fin 259) (hj : j.val = 256 + k.val) :
    val_main_v69 (F := Ideal) x0 x1 x2 x3 x4 x5 x6 x7 x8 (ix2 p j) = x2 (ix2 p k) := by
  unfold val_main_v69
  exact concatenate_apply_piece (1 : Fin 2)
    [⟨S800000x128, val_main_v61 (F := Ideal) x0 x1 x3 x4 x5 x6 x7 x8⟩, ⟨S800000x128, val_main_v68 (F := Ideal) x0 x1 x3 x4 x5 x6 x7 x8⟩, ⟨S800000x3, x2⟩] _ (ix2 p j) 2 (by show 2 < 3; omega)
    S800000x3 _ rfl rfl 256 rfl (ix2 p k)
    (fun b hb => by match b with | ⟨0, _⟩ => rfl | ⟨1, _⟩ => exact absurd (Fin.ext rfl) hb) (by show 256 + k.val = j.val; omega)

/-- The classifier at an entry: the perceptron of the joined row. -/
theorem edge_apply (x0 : FVec Ideal S50000x128 .f32) (x1 : IVec S2x800000 32) (x2 : FVec Ideal S800000x3 .f32) (x3 : FVec Ideal S128x128 .f32)
    (x4 : FVec Ideal S128 .f32) (x5 x6 : FVec Ideal S128x128 .f32) (x7 : FVec Ideal S128 .f32) (x8 : FVec Ideal S128x128 .f32)
    (x9 : FVec Ideal S259x128 .f32) (x10 : FVec Ideal S128 .f32) (x11 : FVec Ideal S128x1 .f32) (x12 : FVec Ideal S1 .f32)
    (p : Fin 800000) (u : Fin 1) :
    val_main_v78 (F := Ideal) x0 x1 x2 x3 x4 x5 x6 x7 x8 x9 x10 x11 x12 (ix2 p u)
      = LibMlp.mlpRow zeroF (fun j => val_main_v69 (F := Ideal) x0 x1 x2 x3 x4 x5 x6 x7 x8 (ix2 p j)) x9 x10 x11 x12 u :=
  LibMlp.host_mlp_apply dot_S800000x259_S259x128_S800000x128_1_0_0_1_n_n rfl dot_S800000x128_S128x1_S800000x1_1_0_0_1_n_n rfl
    (val_main_v69 (F := Ideal) x0 x1 x2 x3 x4 x5 x6 x7 x8) x9 x10 x11 x12 _ _ _ _ _ p u

end Cert.ReferenceIdeal.RefEdge

end
-- ==== Proof.KernelWalk.lean ====
/-
  The idealized kernel's buffers at each boundary of its program, as functions of the arguments.  The host stretches
  are the same operations the reference applies (the slices of the edge list, the row gathers, the segment sums, the
  clamped degree), so their results are named by the reference's own stages; the three tiled regions' outputs are the
  row-wise functions of KernelRegions, and each is shown equal to the reference's stage:
  * first layer: the tiled projection under the ReLU is the plain one, because the reciprocal degree the program
    multiplies with is `1 / d` of the degree `d ≥ 1` the reference divides by;
  * second layer: the same law on the first layer's result;
  * edge classifier: the reference's 259-term product of the joined row splits into the tiled program's five pieces.
  The last boundary's result buffer is then the reference's result, entry by entry.
-/
import proofs.«129380_j80599356277028_2_alg».proof.Proof.Gen.KernelIdeal.Frame
import proofs.«129380_j80599356277028_2_alg».proof.Proof.Gen.ReferenceIdeal.Read
import proofs.«129380_j80599356277028_2_alg».proof.Proof.KernelRegions
import proofs.«129380_j80599356277028_2_alg».proof.Proof.RefLayers
import proofs.«129380_j80599356277028_2_alg».proof.Proof.RefEdge
import proofs.«129380_j80599356277028_2_alg».proof.Proof.LibColumns
import Idealize.ShloMosaic.Lib.StableHlo.Run
import Idealize.ShloMosaic.Lib.IdealHost
import Idealize.ShloMosaic.Lib.ValueLayout

set_option maxRecDepth 16384

noncomputable section

namespace Cert.KernelIdeal.Walk

open Cert.KernelIdeal Cert.KernelIdeal.Gen Idealize.ShloMosaic Idealize.ShloMosaic.TcCoe Idealize.ShloMosaic.ValueIdx
open Idealize.SL.Sem Idealize.ShloMosaic.StableHlo Cert.Gnn
open scoped BigOperators

/-- The tiled projection of a row is the plain one of the same operands, given the reciprocal degree, that the degree
    is not zero, and the bias row. -/
theorem sage_bridge {R : ℕ} {s : Mat R 128} {inv : Mat R 1} {x : Mat R 128} {wl : Mat 128 128} {b : Mat 1 128} {wr : Mat 128 128}
    {s' : Mat R 128} {d : Fin R → EReal} {x' : Mat R 128} {wl' : Mat 128 128} {bv : Fin 128 → EReal} {wr' : Mat 128 128}
    (p : Fin R) (q : Fin 128) (hs : s = s') (hx : x = x') (hwl : wl = wl') (hwr : wr = wr')
    (hinv : inv (ix2 p (0 : Fin 1)) = Ideal.div oneF (d p)) (hd : d p ≠ 0) (hb : b (ix2 (0 : Fin 1) q) = bv q) :
    sageTiledAt s inv x wl b wr p q = sagePlainAt s' d x' wl' bv wr' p q := by
  subst hs hx hwl hwr
  unfold sageTiledAt sagePlainAt
  have e : oneF = 1 := Ideal.ofBits_one_f32
  rw [hb, add_right_comm]
  congr 2
  refine Finset.sum_congr rfl fun k _ => ?_
  rw [hinv, e, Ideal.mul_one_div hd]

/-- The reciprocal of a degree vector, laid out as a column, read at a row. -/
theorem inv_apply (dg : FVec Ideal S50000 .f32) (h1 : S_.BroadcastsInDim S50000 ![]) (h2 : S50000.ShapeCasts S50000x1) (p : Fin 50000) :
    shapeCast S50000x1 (Host.divf (broadcastInDim S50000 ![] h1 (constant (F := Ideal) S_ .f32 0x3F800000#32)) dg) h2 (ix2 p (0 : Fin 1))
      = Ideal.div oneF (dg (ix1 p)) := by
  rw [Columns.shapeCast_a_a1_apply, hostDivf_apply, broadcastInDim_scalar_apply]
  rfl

variable (m : (ℓ : Loc nD τ sig) → Buf (Elt Ideal) ℓ) (ρ : Dev nD → PrngReg) (c : Dev nD)

/-! ## The arguments, typed as arrays -/
abbrev X0 : FVec Ideal S50000x128 .f32 := m ((c : Thread nD τ).loc main_arg0)
abbrev X1 : IVec S2x800000 32 := m ((c : Thread nD τ).loc main_arg1)
abbrev X2 : FVec Ideal S800000x3 .f32 := m ((c : Thread nD τ).loc main_arg2)
abbrev X3 : FVec Ideal S128x128 .f32 := m ((c : Thread nD τ).loc main_arg3)
abbrev X4 : FVec Ideal S128 .f32 := m ((c : Thread nD τ).loc main_arg4)
abbrev X5 : FVec Ideal S128x128 .f32 := m ((c : Thread nD τ).loc main_arg5)
abbrev X6 : FVec Ideal S128x128 .f32 := m ((c : Thread nD τ).loc main_arg6)
abbrev X7 : FVec Ideal S128 .f32 := m ((c : Thread nD τ).loc main_arg7)
abbrev X8 : FVec Ideal S128x128 .f32 := m ((c : Thread nD τ).loc main_arg8)
abbrev X9 : FVec Ideal S259x128 .f32 := m ((c : Thread nD τ).loc main_arg9)
abbrev X10 : FVec Ideal S128 .f32 := m ((c : Thread nD τ).loc main_arg10)
abbrev X11 : FVec Ideal S128x1 .f32 := m ((c : Thread nD τ).loc main_arg11)
abbrev X12 : FVec Ideal S1 .f32 := m ((c : Thread nD τ).loc main_arg12)

/-! ## Entering region 0: after the first stretch of host operations -/

theorem W1_v1 : W1 m ρ c (Proc.devRef .tc main_v1) = Cert.ReferenceIdeal.Read.val_main_v1 (F := Ideal) (X1 m c) := by
  dsimp only [W1, hostOps0]; after_results <;> rfl
theorem W1_v3 : W1 m ρ c (Proc.devRef .tc main_v3) = Cert.ReferenceIdeal.Read.val_main_v3 (F := Ideal) (X1 m c) := by
  dsimp only [W1, hostOps0]; after_results <;> rfl
theorem W1_v22 : W1 m ρ c (Proc.devRef .tc main_v22) = Cert.ReferenceIdeal.Read.val_main_v13 (F := Ideal) (X0 m c) (X1 m c) := by
  dsimp only [W1, hostOps0]; after_results <;> rfl
theorem W1_v12 : W1 m ρ c (Proc.devRef .tc main_v12)
    = shapeCast S50000x1 (Host.divf (broadcastInDim S50000 ![] bcast_S_S50000 (constant (F := Ideal) S_ .f32 0x3F800000#32))
        (Cert.ReferenceIdeal.Read.val_main_v19 (F := Ideal) (X1 m c))) shapeCasts_S50000_S50000x1 := by
  dsimp only [W1, hostOps0]; after_results <;> rfl
theorem W1_arg0 : W1 m ρ c (Proc.devRef .tc main_arg0) = X0 m c := by
  dsimp only [W1, hostOps0]; after_results <;> rfl
theorem W1_v23 : W1 m ρ c (Proc.devRef .tc main_v23) = X3 m c := by
  dsimp only [W1, hostOps0]; after_results <;> rfl
theorem W1_v25 : W1 m ρ c (Proc.devRef .tc main_v25) = shapeCast S1x128 (X4 m c) shapeCasts_S128_S1x128 := by
  dsimp only [W1, hostOps0]; after_results <;> rfl
theorem W1_v24 : W1 m ρ c (Proc.devRef .tc main_v24) = X5 m c := by
  dsimp only [W1, hostOps0]; after_results <;> rfl

theorem W1_arg2 : W1 m ρ c (Proc.devRef .tc main_arg2) = X2 m c := by
  dsimp only [W1, hostOps0]; after_results <;> rfl
theorem W1_arg6 : W1 m ρ c (Proc.devRef .tc main_arg6) = X6 m c := by
  dsimp only [W1, hostOps0]; after_results <;> rfl
theorem W1_arg7 : W1 m ρ c (Proc.devRef .tc main_arg7) = X7 m c := by
  dsimp only [W1, hostOps0]; after_results <;> rfl
theorem W1_arg8 : W1 m ρ c (Proc.devRef .tc main_arg8) = X8 m c := by
  dsimp only [W1, hostOps0]; after_results <;> rfl
theorem W1_arg9 : W1 m ρ c (Proc.devRef .tc main_arg9) = X9 m c := by
  dsimp only [W1, hostOps0]; after_results <;> rfl
theorem W1_arg10 : W1 m ρ c (Proc.devRef .tc main_arg10) = X10 m c := by
  dsimp only [W1, hostOps0]; after_results <;> rfl
theorem W1_arg11 : W1 m ρ c (Proc.devRef .tc main_arg11) = X11 m c := by
  dsimp only [W1, hostOps0]; after_results <;> rfl
theorem W1_arg12 : W1 m ρ c (Proc.devRef .tc main_arg12) = X12 m c := by
  dsimp only [W1, hostOps0]; after_results <;> rfl

/-! ## Leaving region 0: the first layer -/

theorem W2_v26 : W2 m ρ c (Proc.devRef .tc main_v26) = Regions.G0 (V1 m ρ) c :=
  (W2_arr m ρ c 6).trans (Regions.final0 (V1 m ρ) c)

/-- The first layer's array is the reference's. -/
theorem layer1_eq : Regions.G0 (V1 m ρ) c = Cert.ReferenceIdeal.Read.val_main_v29 (F := Ideal) (X0 m c) (X1 m c) (X3 m c) (X4 m c) (X5 m c) := by
  funext i
  obtain ⟨p, q, rfl⟩ : ∃ (p : Fin 50000) (q : Fin 128), i = ix2 p q := ⟨i 0, i 1, eq_ix2 i⟩
  rw [Cert.ReferenceIdeal.RefValue.layer1_apply]
  show max (sageTiledAt _ _ _ _ _ _ p q) zeroF = _
  refine congrArg (max · zeroF) (sage_bridge p q (W1_v22 m ρ c) (W1_arg0 m ρ c) (W1_v23 m ρ c) (W1_v24 m ρ c) ?_
    (Cert.ReferenceIdeal.RefValue.deg1_ne_zero (X1 m c) p) ?_)
  · show (W1 m ρ c (Proc.devRef .tc main_v12) : S50000x1.Idx → EReal) (ix2 p (0 : Fin 1)) = _
    rw [W1_v12]
    exact inv_apply _ _ _ p
  · show (W1 m ρ c (Proc.devRef .tc main_v25) : S1x128.Idx → EReal) (ix2 (0 : Fin 1) q) = _
    rw [W1_v25]
    exact shapeCast_a_1a_apply _ _ 0 q

/-! ## Entering region 1: after the second stretch -/

theorem W2_v12 : W2 m ρ c (Proc.devRef .tc main_v12) = W1 m ρ c (Proc.devRef .tc main_v12) :=
  (W2_arr m ρ c 1).trans (((dat0 (V1 m ρ) c).arrAt_in 1 rfl _).trans (A_eq0 (V1 m ρ) c 1))

theorem W3_v1 : W3 m ρ c (Proc.devRef .tc main_v1) = Cert.ReferenceIdeal.Read.val_main_v1 (F := Ideal) (X1 m c) := by
  dsimp only [W3, hostOps1]; after_results
  rw [W2_of_ne m ρ c main_v1 (by decide), W1_v1]
theorem W3_v3 : W3 m ρ c (Proc.devRef .tc main_v3) = Cert.ReferenceIdeal.Read.val_main_v3 (F := Ideal) (X1 m c) := by
  dsimp only [W3, hostOps1]; after_results
  rw [W2_of_ne m ρ c main_v3 (by decide), W1_v3]
theorem W3_v36 : W3 m ρ c (Proc.devRef .tc main_v36) = Cert.ReferenceIdeal.Read.val_main_v39 (F := Ideal) (X0 m c) (X1 m c) (X3 m c) (X4 m c) (X5 m c) := by
  dsimp only [W3, hostOps1]; after_results
  rw [W2_of_ne m ρ c main_v3 (by decide), W2_of_ne m ρ c main_v1 (by decide), W2_v26, layer1_eq, W1_v3, W1_v1]
  rfl
theorem W3_v12 : W3 m ρ c (Proc.devRef .tc main_v12)
    = shapeCast S50000x1 (Host.divf (broadcastInDim S50000 ![] bcast_S_S50000 (constant (F := Ideal) S_ .f32 0x3F800000#32))
        (Cert.ReferenceIdeal.Read.val_main_v19 (F := Ideal) (X1 m c))) shapeCasts_S50000_S50000x1 := by
  dsimp only [W3, hostOps1]; after_results
  rw [W2_v12, W1_v12]
theorem W3_v26 : W3 m ρ c (Proc.devRef .tc main_v26) = Cert.ReferenceIdeal.Read.val_main_v29 (F := Ideal) (X0 m c) (X1 m c) (X3 m c) (X4 m c) (X5 m c) := by
  dsimp only [W3, hostOps1]; after_results
  rw [W2_v26, layer1_eq]
theorem W3_v37 : W3 m ρ c (Proc.devRef .tc main_v37) = X6 m c := by
  dsimp only [W3, hostOps1]; after_results
  rw [W2_of_ne m ρ c main_arg6 (by decide), W1_arg6]; rfl
theorem W3_v39 : W3 m ρ c (Proc.devRef .tc main_v39) = shapeCast S1x128 (X7 m c) shapeCasts_S128_S1x128 := by
  dsimp only [W3, hostOps1]; after_results
  rw [W2_of_ne m ρ c main_arg7 (by decide), W1_arg7]
  rfl
theorem W3_v38 : W3 m ρ c (Proc.devRef .tc main_v38) = X8 m c := by
  dsimp only [W3, hostOps1]; after_results
  rw [W2_of_ne m ρ c main_arg8 (by decide), W1_arg8]; rfl
theorem W3_arg2 : W3 m ρ c (Proc.devRef .tc main_arg2) = X2 m c := by
  dsimp only [W3, hostOps1]; after_results
  rw [W2_of_ne m ρ c main_arg2 (by decide), W1_arg2]
theorem W3_arg9 : W3 m ρ c (Proc.devRef .tc main_arg9) = X9 m c := by
  dsimp only [W3, hostOps1]; after_results
  rw [W2_of_ne m ρ c main_arg9 (by decide), W1_arg9]
theorem W3_arg10 : W3 m ρ c (Proc.devRef .tc main_arg10) = X10 m c := by
  dsimp only [W3, hostOps1]; after_results
  rw [W2_of_ne m ρ c main_arg10 (by decide), W1_arg10]
theorem W3_arg11 : W3 m ρ c (Proc.devRef .tc main_arg11) = X11 m c := by
  dsimp only [W3, hostOps1]; after_results
  rw [W2_of_ne m ρ c main_arg11 (by decide), W1_arg11]
theorem W3_arg12 : W3 m ρ c (Proc.devRef .tc main_arg12) = X12 m c := by
  dsimp only [W3, hostOps1]; after_results
  rw [W2_of_ne m ρ c main_arg12 (by decide), W1_arg12]

/-! ## Leaving region 1: the second layer -/

theorem W4_v40 : W4 m ρ c (Proc.devRef .tc main_v40) = Regions.G1 (V3 m ρ) c :=
  (W4_arr m ρ c 6).trans (Regions.final1 (V3 m ρ) c)

/-- The second layer's array is the reference's. -/
theorem layer2_eq : Regions.G1 (V3 m ρ) c = Cert.ReferenceIdeal.Read.val_main_v54 (F := Ideal) (X0 m c) (X1 m c) (X3 m c) (X4 m c) (X5 m c) (X6 m c) (X7 m c) (X8 m c) := by
  funext i
  obtain ⟨p, q, rfl⟩ : ∃ (p : Fin 50000) (q : Fin 128), i = ix2 p q := ⟨i 0, i 1, eq_ix2 i⟩
  rw [Cert.ReferenceIdeal.RefValue.layer2_apply]
  show sageTiledAt _ _ _ _ _ _ p q = _
  refine sage_bridge p q (W3_v36 m ρ c) (W3_v26 m ρ c) (W3_v37 m ρ c) (W3_v38 m ρ c) ?_
    (Cert.ReferenceIdeal.RefValue.deg2_ne_zero (X1 m c) p) ?_
  · show (W3 m ρ c (Proc.devRef .tc main_v12) : S50000x1.Idx → EReal) (ix2 p (0 : Fin 1)) = _
    rw [W3_v12]
    exact inv_apply _ _ _ p
  · show (W3 m ρ c (Proc.devRef .tc main_v39) : S1x128.Idx → EReal) (ix2 (0 : Fin 1) q) = _
    rw [W3_v39]
    exact shapeCast_a_1a_apply _ _ 0 q

/-! ## Entering region 2: after the third stretch -/

theorem W5_v47 : W5 m ρ c (Proc.devRef .tc main_v47) = Cert.ReferenceIdeal.Read.val_main_v61 (F := Ideal) (X0 m c) (X1 m c) (X3 m c) (X4 m c) (X5 m c) (X6 m c) (X7 m c) (X8 m c) := by
  dsimp only [W5, hostOps2]; after_results
  rw [W4_of_ne m ρ c main_v1 (by decide), W4_v40, layer2_eq, W3_v1]
  rfl
theorem W5_v54 : W5 m ρ c (Proc.devRef .tc main_v54) = Cert.ReferenceIdeal.Read.val_main_v68 (F := Ideal) (X0 m c) (X1 m c) (X3 m c) (X4 m c) (X5 m c) (X6 m c) (X7 m c) (X8 m c) := by
  dsimp only [W5, hostOps2]; after_results
  rw [W4_of_ne m ρ c main_v3 (by decide), W4_v40, layer2_eq, W3_v3]
  rfl
theorem W5_arg2 : W5 m ρ c (Proc.devRef .tc main_arg2) = X2 m c := by
  dsimp only [W5, hostOps2]; after_results
  rw [W4_of_ne m ρ c main_arg2 (by decide), W3_arg2]
theorem W5_v56 : W5 m ρ c (Proc.devRef .tc main_v56) = extractStridedSlice S128x128 ![0, 0] (X9 m c) slices_S259x128_S128x128_0_0 := by
  dsimp only [W5, hostOps2]; after_results
  rw [W4_of_ne m ρ c main_arg9 (by decide), W3_arg9]; rfl
theorem W5_v58 : W5 m ρ c (Proc.devRef .tc main_v58) = extractStridedSlice S128x128 ![128, 0] (X9 m c) slices_S259x128_S128x128_128_0 := by
  dsimp only [W5, hostOps2]; after_results
  rw [W4_of_ne m ρ c main_arg9 (by decide), W3_arg9]; rfl
theorem W5_v59 : W5 m ρ c (Proc.devRef .tc main_v59) = extractStridedSlice S3x128 ![256, 0] (X9 m c) slices_S259x128_S3x128_256_0 := by
  dsimp only [W5, hostOps2]; after_results
  rw [W4_of_ne m ρ c main_arg9 (by decide), W3_arg9]
theorem W5_v61 : W5 m ρ c (Proc.devRef .tc main_v61) = shapeCast S1x128 (X10 m c) shapeCasts_S128_S1x128 := by
  dsimp only [W5, hostOps2]; after_results
  rw [W4_of_ne m ρ c main_arg10 (by decide), W3_arg10]
  rfl
theorem W5_v60 : W5 m ρ c (Proc.devRef .tc main_v60) = X11 m c := by
  dsimp only [W5, hostOps2]; after_results
  rw [W4_of_ne m ρ c main_arg11 (by decide), W3_arg11]; rfl
theorem W5_v62 : W5 m ρ c (Proc.devRef .tc main_v62) = shapeCast S1x1 (X12 m c) shapeCasts_S1_S1x1 := by
  dsimp only [W5, hostOps2]; after_results
  rw [W4_of_ne m ρ c main_arg12 (by decide), W3_arg12]
  rfl

/-! ## Leaving region 2, and the result -/

theorem W6_v63 : W6 m ρ c (Proc.devRef .tc main_v63) = Regions.G2 (V5 m ρ) c :=
  (W6_arr m ρ c 9).trans (Regions.final2 (V5 m ρ) c)

theorem W7_v64 : W7 m ρ c (Proc.devRef .tc main_v64) = shapeCast S800000 (Regions.G2 (V5 m ρ) c) shapeCasts_S800000x1_S800000 := by
  dsimp only [W7, hostOps3]; after_results
  rw [W6_v63]
  rfl

/-- The classifier's array, entry by entry, is the reference's perceptron of the joined row. -/
theorem edge_eq (e : Fin 800000) :
    Regions.G2 (V5 m ρ) c (ix2 e (0 : Fin 1))
      = Cert.ReferenceIdeal.Read.val_main_v78 (F := Ideal) (X0 m c) (X1 m c) (X2 m c) (X3 m c) (X4 m c) (X5 m c) (X6 m c) (X7 m c) (X8 m c) (X9 m c) (X10 m c) (X11 m c) (X12 m c) (ix2 e (0 : Fin 1)) := by
  rw [Cert.ReferenceIdeal.RefEdge.edge_apply]
  show edgeOut (fun cc => hiddenTiled _ _ _ _ _ _ e cc) _ _ _ = _
  unfold LibMlp.mlpRow
  refine edgeOut_congr (fun cc => ?_) (fun cc => ?_) (fun cc => ?_) ?_
  · refine (Cert.ReferenceIdeal.RefEdge.joined_hidden _ _ _ _ (X9 m c) _ _ _ e cc ?_ ?_ ?_ ?_ ?_ ?_ ?_ ?_ ?_ ?_).symm
    · intro k
      show _ = (W5 m ρ c (Proc.devRef .tc main_v47) : S800000x128.Idx → EReal) (ix2 e k)
      rw [W5_v47]
      exact Cert.ReferenceIdeal.RefEdge.cat_left _ _ _ _ _ _ _ _ _ e k _ rfl
    · intro k
      show _ = (W5 m ρ c (Proc.devRef .tc main_v54) : S800000x128.Idx → EReal) (ix2 e k)
      rw [W5_v54]
      exact Cert.ReferenceIdeal.RefEdge.cat_mid _ _ _ _ _ _ _ _ _ e k _ rfl
    · show _ = (W5 m ρ c (Proc.devRef .tc main_arg2) : S800000x3.Idx → EReal) (ix2 e (0 : Fin 3))
      rw [W5_arg2]
      exact Cert.ReferenceIdeal.RefEdge.cat_right _ _ _ _ _ _ _ _ _ e 0 _ rfl
    · show _ = (W5 m ρ c (Proc.devRef .tc main_arg2) : S800000x3.Idx → EReal) (ix2 e (1 : Fin 3))
      rw [W5_arg2]
      exact Cert.ReferenceIdeal.RefEdge.cat_right _ _ _ _ _ _ _ _ _ e 1 _ rfl
    · show _ = (W5 m ρ c (Proc.devRef .tc main_arg2) : S800000x3.Idx → EReal) (ix2 e (2 : Fin 3))
      rw [W5_arg2]
      exact Cert.ReferenceIdeal.RefEdge.cat_right _ _ _ _ _ _ _ _ _ e 2 _ rfl
    · intro k
      show _ = (W5 m ρ c (Proc.devRef .tc main_v56) : S128x128.Idx → EReal) (ix2 k cc)
      rw [W5_v56]
      exact (slice2_axis0_apply 0 (X9 m c) _ k cc _ (by show k.val = 0 + k.val; omega)).symm
    · intro k
      show _ = (W5 m ρ c (Proc.devRef .tc main_v58) : S128x128.Idx → EReal) (ix2 k cc)
      rw [W5_v58]
      exact (slice2_axis0_apply 128 (X9 m c) _ k cc _ rfl).symm
    · show _ = (W5 m ρ c (Proc.devRef .tc main_v59) : S3x128.Idx → EReal) (ix2 (0 : Fin 3) cc)
      rw [W5_v59]
      exact (slice2_axis0_apply 256 (X9 m c) _ 0 cc _ rfl).symm
    · show _ = (W5 m ρ c (Proc.devRef .tc main_v59) : S3x128.Idx → EReal) (ix2 (1 : Fin 3) cc)
      rw [W5_v59]
      exact (slice2_axis0_apply 256 (X9 m c) _ 1 cc _ rfl).symm
    · show _ = (W5 m ρ c (Proc.devRef .tc main_v59) : S3x128.Idx → EReal) (ix2 (2 : Fin 3) cc)
      rw [W5_v59]
      exact (slice2_axis0_apply 256 (X9 m c) _ 2 cc _ rfl).symm
  · show (W5 m ρ c (Proc.devRef .tc main_v61) : S1x128.Idx → EReal) (ix2 (0 : Fin 1) cc) = _
    rw [W5_v61]
    exact shapeCast_a_1a_apply _ _ 0 cc
  · show (W5 m ρ c (Proc.devRef .tc main_v60) : S128x1.Idx → EReal) (ix2 cc (0 : Fin 1)) = _
    rw [W5_v60]
  · show (W5 m ρ c (Proc.devRef .tc main_v62) : S1x1.Idx → EReal) (ix2 (0 : Fin 1) (0 : Fin 1)) = _
    rw [W5_v62]
    exact shapeCast_a_1a_apply _ _ 0 0

/-- THE RESULT: the last boundary's result buffer is the reference's result of the same arguments. -/
theorem result_eq : W7 m ρ c (Proc.devRef .tc main_v64)
    = Cert.ReferenceIdeal.Read.val_main_v79 (F := Ideal) (X0 m c) (X1 m c) (X2 m c) (X3 m c) (X4 m c) (X5 m c) (X6 m c) (X7 m c) (X8 m c) (X9 m c) (X10 m c) (X11 m c) (X12 m c) := by
  rw [W7_v64]
  funext i
  obtain ⟨e, rfl⟩ : ∃ e : Fin 800000, i = ix1 e := ⟨i 0, eq_ix1 i⟩
  rw [Cert.ReferenceIdeal.Read.val_main_v79_apply]
  have hidx : Cert.ReferenceIdeal.Read.idx_main_v79 (ix1 e) = ix2 e (0 : Fin 1) := funext fun a => Fin.ext (by
    match a with
    | ⟨0, _⟩ => exact Nat.div_one _
    | ⟨1, _⟩ => rfl)
  rw [hidx, ← edge_eq]
  exact shapeCast_apply _ _ (ix1 e) (ix2 e (0 : Fin 1)) (by
    rw [Shape.rowMajor_val_two, Shape.rowMajor_val_one]
    show e.val * 1 + 0 = e.val
    omega)

end Cert.KernelIdeal.Walk

end
-- ==== Proof.lean ====
/-
  The certificate of a two-layer GraphSAGE network with an edge classifier, tiled for the TensorCore, against its plain
  jnp reference, on the extended reals.

  Both programs gather the rows of the node features by the edges' sources and sum them into the edges' targets with the
  same host operations, so those stages are one function of whatever array goes in; the proof never opens a gather or a
  segment sum.  The three dense stages differ in arrangement only:
  * a SAGE projection multiplies the neighbour sums with the reciprocal `1/d` of the clamped in-degree `d = max(count, 1)`
    where the reference divides by `d`; `u · (1/d) = u / d` for every extended real `u` because `d ≥ 1` is not zero;
    the bias and the second product are added in the other order (addition is commutative and associative);
  * the edge classifier feeds the two gathered rows and the three edge features separately, against three slices of
    the first weight matrix, where the reference joins them into one row of 259 entries: a sum over 259 = 128 + 128 + 3
    indices split into its stretches;
  * roundings to bfloat16 are the identity, and a product accumulated tile by tile is the product row by row.
  No finiteness is used: every law above holds on all extended reals.

  The frames of the two kernel programs are the generated ones; the reference's frame is its generated run with the
  result dropped.  The kernel's run with its result named is KernelRun; what that result is, KernelWalk.
-/
import proofs.«129380_j80599356277028_2_alg».proof.Defs
import proofs.«129380_j80599356277028_2_alg».proof.Proof.Gen.Kernel
import proofs.«129380_j80599356277028_2_alg».proof.Proof.Gen.Kernel.Skeleton
import proofs.«129380_j80599356277028_2_alg».proof.Proof.Gen.Kernel.Launch
import proofs.«129380_j80599356277028_2_alg».proof.Proof.Gen.Kernel.Points
import proofs.«129380_j80599356277028_2_alg».proof.Proof.Gen.Kernel.Frame
import proofs.«129380_j80599356277028_2_alg».proof.Proof.Gen.KernelIdeal
import proofs.«129380_j80599356277028_2_alg».proof.Proof.Gen.KernelIdeal.Skeleton
import proofs.«129380_j80599356277028_2_alg».proof.Proof.Gen.KernelIdeal.Launch
import proofs.«129380_j80599356277028_2_alg».proof.Proof.Gen.KernelIdeal.Points
import proofs.«129380_j80599356277028_2_alg».proof.Proof.Gen.KernelIdeal.Frame
import proofs.«129380_j80599356277028_2_alg».proof.Proof.Gen.ReferenceIdeal
import proofs.«129380_j80599356277028_2_alg».proof.Proof.Gen.ReferenceIdeal.Run
import proofs.«129380_j80599356277028_2_alg».proof.Proof.Gen.ReferenceIdeal.Read
import proofs.«129380_j80599356277028_2_alg».proof.Proof.Gen.Pre_finite_inputs
import proofs.«129380_j80599356277028_2_alg».proof.Proof.KernelRun
import proofs.«129380_j80599356277028_2_alg».proof.Proof.KernelWalk
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs run, and the reference's result is the kernel's: the
    kernel's result buffer ends at the last boundary's contents, which are the reference's result term of the same
    arguments (`KernelWalk.result_eq`). -/
theorem algebraic : Cert.algebraic_KernelIdeal_ReferenceIdeal := by
  intro m ρ m' ρ' _ hagree
  refine ⟨fun c => Cert.KernelIdeal.Gen.W7 m ρ c (Proc.devRef .tc Cert.KernelIdeal.main_v64),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v79_eq, h0, h1, h2, h3, h4, h5, h6, h7, h8, h9, h10, h11, h12]
  exact (Cert.KernelIdeal.Walk.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
